-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1023 : Shape := ⟨2, ![65536, 1023]⟩
abbrev S_ : Shape := ⟨0, ![]⟩

class Facts : Prop where
  bcast_S_S65536x1023 : S_.BroadcastsInDim S65536x1023 (![] : Fin 0 → Fin S65536x1023.rank)
  reducesTo_S65536x1023_S_d0_1 : S65536x1023.ReducesTo [0, 1] S_
  h_S_ : 0 < S_.numel

variable [Facts]

def fn {F : FTy → Type} [FloatOps F] (main_arg0 : FVec F S65536x1023 .f32) : IVec S_ 1 :=
  let main_v0 : FVec F S65536x1023 .f32 := Host.absf main_arg0
  let main_cst : FVec F S_ .f32 := constant S_ .f32 0x7F800000#32
  let main_v1 : FVec F S65536x1023 .f32 := broadcastInDim S65536x1023 ![] bcast_S_S65536x1023 main_cst
  let main_v2 : IVec S65536x1023 1 := cmpf .olt main_v0 main_v1
  let main_c : IVec S_ 1 := constantI S_ 1 1#1
  let main_v3 : IVec S_ 1 := (fun x v => Host.reduce IntOp.andi x v reducesTo_S65536x1023_S_d0_1 h_S_) main_v2 main_c
  main_v3
-- ==== Kernel.lean ====
abbrev S65536x1023 : Shape := ⟨2, ![65536, 1023]⟩
abbrev S65536x1024 : Shape := ⟨2, ![65536, 1024]⟩
abbrev S1024x1023 : Shape := ⟨2, ![1024, 1023]⟩
abbrev S1024x1024 : Shape := ⟨2, ![1024, 1024]⟩
abbrev S1023x1024 : Shape := ⟨2, ![1023, 1024]⟩
abbrev S1x1024 : Shape := ⟨2, ![1, 1024]⟩
abbrev S1x1x1024 : Shape := ⟨3, ![1, 1, 1024]⟩
abbrev S1x2x1024 : Shape := ⟨3, ![1, 2, 1024]⟩
abbrev S2x1024 : Shape := ⟨2, ![2, 1024]⟩
abbrev S2x1x1024 : Shape := ⟨3, ![2, 1, 1024]⟩
abbrev S2x2x1024 : Shape := ⟨3, ![2, 2, 1024]⟩
abbrev S4x1024 : Shape := ⟨2, ![4, 1024]⟩
abbrev S4x1x1024 : Shape := ⟨3, ![4, 1, 1024]⟩
abbrev S4x2x1024 : Shape := ⟨3, ![4, 2, 1024]⟩
abbrev S8x1024 : Shape := ⟨2, ![8, 1024]⟩
abbrev S8x1x1024 : Shape := ⟨3, ![8, 1, 1024]⟩
abbrev S8x2x1024 : Shape := ⟨3, ![8, 2, 1024]⟩
abbrev S16x1024 : Shape := ⟨2, ![16, 1024]⟩
abbrev S16x1x1024 : Shape := ⟨3, ![16, 1, 1024]⟩
abbrev S16x2x1024 : Shape := ⟨3, ![16, 2, 1024]⟩
abbrev S32x1024 : Shape := ⟨2, ![32, 1024]⟩
abbrev S32x1x1024 : Shape := ⟨3, ![32, 1, 1024]⟩
abbrev S32x2x1024 : Shape := ⟨3, ![32, 2, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S128x1x1024 : Shape := ⟨3, ![128, 1, 1024]⟩
abbrev S128x2x1024 : Shape := ⟨3, ![128, 2, 1024]⟩
abbrev S256x1024 : Shape := ⟨2, ![256, 1024]⟩
abbrev S256x1x1024 : Shape := ⟨3, ![256, 1, 1024]⟩
abbrev S256x2x1024 : Shape := ⟨3, ![256, 2, 1024]⟩
abbrev S512x1024 : Shape := ⟨2, ![512, 1024]⟩
abbrev S512x1x1024 : Shape := ⟨3, ![512, 1, 1024]⟩
abbrev S512x2x1024 : Shape := ⟨3, ![512, 2, 1024]⟩

abbrev nBuf : Space → Nat
  | .hbm => 2
  | .vmem => 4
  | .smem => 0
  | _ => 0

abbrev bufTy : (tb : Table) → Fin (tcTables nBuf tb) → BufTy
  | .hbm, ⟨0, _⟩ => ⟨S65536x1023, .f32⟩
  | .hbm, ⟨1, _⟩ => ⟨S65536x1024, .f32⟩
  | .local _ .vmem, ⟨0, _⟩ => ⟨S1024x1023, .f32⟩
  | .local _ .vmem, ⟨1, _⟩ => ⟨S1024x1023, .f32⟩
  | .local _ .vmem, ⟨2, _⟩ => ⟨S1024x1024, .f32⟩
  | .local _ .vmem, ⟨3, _⟩ => ⟨S1024x1024, .f32⟩
  | _, _ => ⟨S65536x1023, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1023 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x1023_S1024x1023_0_0 : ∀ a, (![0, 0] : Fin 2 → Nat) a + S1024x1023.size a ≤ S1024x1023.size a
  h_S1024x1023 : 0 < S1024x1023.numel
  transposes_S1024x1023_p1_0_S1023x1024 : S1024x1023.Transposes [1, 0] S1023x1024
  concatenates_S1x1024_S1023x1024_S1024x1024_d0 : Shape.Concatenates [S1x1024, S1023x1024] S1024x1024 0
  slices_S1024x1024_o1_0_S1x1024 : S1024x1024.Slices ![1, 0] S1x1024
  shapeCasts_S1x1024_S1x1x1024 : S1x1024.ShapeCasts S1x1x1024
  concatenates_S1x1x1024_S1x1x1024_S1x2x1024_d1 : Shape.Concatenates [S1x1x1024, S1x1x1024] S1x2x1024 1
  shapeCasts_S1x2x1024_S2x1024 : S1x2x1024.ShapeCasts S2x1024
  slices_S1024x1024_o2_0_S2x1024 : S1024x1024.Slices ![2, 0] S2x1024
  shapeCasts_S2x1024_S2x1x1024 : S2x1024.ShapeCasts S2x1x1024
  concatenates_S2x1x1024_S2x1x1024_S2x2x1024_d1 : Shape.Concatenates [S2x1x1024, S2x1x1024] S2x2x1024 1
  shapeCasts_S2x2x1024_S4x1024 : S2x2x1024.ShapeCasts S4x1024
  slices_S1024x1024_o4_0_S4x1024 : S1024x1024.Slices ![4, 0] S4x1024
  shapeCasts_S4x1024_S4x1x1024 : S4x1024.ShapeCasts S4x1x1024
  concatenates_S4x1x1024_S4x1x1024_S4x2x1024_d1 : Shape.Concatenates [S4x1x1024, S4x1x1024] S4x2x1024 1
  shapeCasts_S4x2x1024_S8x1024 : S4x2x1024.ShapeCasts S8x1024
  slices_S1024x1024_o8_0_S8x1024 : S1024x1024.Slices ![8, 0] S8x1024
  shapeCasts_S8x1024_S8x1x1024 : S8x1024.ShapeCasts S8x1x1024
  concatenates_S8x1x1024_S8x1x1024_S8x2x1024_d1 : Shape.Concatenates [S8x1x1024, S8x1x1024] S8x2x1024 1
  shapeCasts_S8x2x1024_S16x1024 : S8x2x1024.ShapeCasts S16x1024
  slices_S1024x1024_o16_0_S16x1024 : S1024x1024.Slices ![16, 0] S16x1024
  shapeCasts_S16x1024_S16x1x1024 : S16x1024.ShapeCasts S16x1x1024
  concatenates_S16x1x1024_S16x1x1024_S16x2x1024_d1 : Shape.Concatenates [S16x1x1024, S16x1x1024] S16x2x1024 1
  shapeCasts_S16x2x1024_S32x1024 : S16x2x1024.ShapeCasts S32x1024
  slices_S1024x1024_o32_0_S32x1024 : S1024x1024.Slices ![32, 0] S32x1024
  shapeCasts_S32x1024_S32x1x1024 : S32x1024.ShapeCasts S32x1x1024
  concatenates_S32x1x1024_S32x1x1024_S32x2x1024_d1 : Shape.Concatenates [S32x1x1024, S32x1x1024] S32x2x1024 1
  shapeCasts_S32x2x1024_S64x1024 : S32x2x1024.ShapeCasts S64x1024
  slices_S1024x1024_o64_0_S64x1024 : S1024x1024.Slices ![64, 0] S64x1024
  shapeCasts_S64x1024_S64x1x1024 : S64x1024.ShapeCasts S64x1x1024
  concatenates_S64x1x1024_S64x1x1024_S64x2x1024_d1 : Shape.Concatenates [S64x1x1024, S64x1x1024] S64x2x1024 1
  shapeCasts_S64x2x1024_S128x1024 : S64x2x1024.ShapeCasts S128x1024
  slices_S1024x1024_o128_0_S128x1024 : S1024x1024.Slices ![128, 0] S128x1024
  shapeCasts_S128x1024_S128x1x1024 : S128x1024.ShapeCasts S128x1x1024
  concatenates_S128x1x1024_S128x1x1024_S128x2x1024_d1 : Shape.Concatenates [S128x1x1024, S128x1x1024] S128x2x1024 1
  shapeCasts_S128x2x1024_S256x1024 : S128x2x1024.ShapeCasts S256x1024
  slices_S1024x1024_o256_0_S256x1024 : S1024x1024.Slices ![256, 0] S256x1024
  shapeCasts_S256x1024_S256x1x1024 : S256x1024.ShapeCasts S256x1x1024
  concatenates_S256x1x1024_S256x1x1024_S256x2x1024_d1 : Shape.Concatenates [S256x1x1024, S256x1x1024] S256x2x1024 1
  shapeCasts_S256x2x1024_S512x1024 : S256x2x1024.ShapeCasts S512x1024
  slices_S1024x1024_o512_0_S512x1024 : S1024x1024.Slices ![512, 0] S512x1024
  shapeCasts_S512x1024_S512x1x1024 : S512x1024.ShapeCasts S512x1x1024
  concatenates_S512x1x1024_S512x1x1024_S512x2x1024_d1 : Shape.Concatenates [S512x1x1024, S512x1x1024] S512x2x1024 1
  shapeCasts_S512x2x1024_S1024x1024 : S512x2x1024.ShapeCasts S1024x1024
  transposes_S1024x1024_p1_0_S1024x1024 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1023.size a ≤ S65536x1023.size a
  hwx0_0 : ∀ i : grid0.Coords, EltTy.bits .f32 = 32 ∨ (Rect.block (s := S65536x1023) S1024x1023.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)

variable [Facts₀]

abbrev win0_0 : Pipeline.Window sig grid0 :=
  Pipeline.Window.ofSpec (Memref.whole main_arg0) S1024x1023.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x1023 : Shape := ⟨2, ![65536, 1023]⟩
abbrev S_ : Shape := ⟨0, ![]⟩
abbrev S65536x1 : Shape := ⟨2, ![65536, 1]⟩
abbrev S65536x1x1 : Shape := ⟨3, ![65536, 1, 1]⟩
abbrev S65536x1x2 : Shape := ⟨3, ![65536, 1, 2]⟩
abbrev S65536x2 : Shape := ⟨2, ![65536, 2]⟩
abbrev S65536x2x1 : Shape := ⟨3, ![65536, 2, 1]⟩
abbrev S65536x2x2 : Shape := ⟨3, ![65536, 2, 2]⟩
abbrev S65536x4 : Shape := ⟨2, ![65536, 4]⟩
abbrev S65536x4x1 : Shape := ⟨3, ![65536, 4, 1]⟩
abbrev S65536x4x2 : Shape := ⟨3, ![65536, 4, 2]⟩
abbrev S65536x8 : Shape := ⟨2, ![65536, 8]⟩
abbrev S65536x8x1 : Shape := ⟨3, ![65536, 8, 1]⟩
abbrev S65536x8x2 : Shape := ⟨3, ![65536, 8, 2]⟩
abbrev S65536x16 : Shape := ⟨2, ![65536, 16]⟩
abbrev S65536x16x1 : Shape := ⟨3, ![65536, 16, 1]⟩
abbrev S65536x16x2 : Shape := ⟨3, ![65536, 16, 2]⟩
abbrev S65536x32 : Shape := ⟨2, ![65536, 32]⟩
abbrev S65536x32x1 : Shape := ⟨3, ![65536, 32, 1]⟩
abbrev S65536x32x2 : Shape := ⟨3, ![65536, 32, 2]⟩
abbrev S65536x64 : Shape := ⟨2, ![65536, 64]⟩
abbrev S65536x64x1 : Shape := ⟨3, ![65536, 64, 1]⟩
abbrev S65536x64x2 : Shape := ⟨3, ![65536, 64, 2]⟩
abbrev S65536x128 : Shape := ⟨2, ![65536, 128]⟩
abbrev S65536x128x1 : Shape := ⟨3, ![65536, 128, 1]⟩
abbrev S65536x128x2 : Shape := ⟨3, ![65536, 128, 2]⟩
abbrev S65536x256 : Shape := ⟨2, ![65536, 256]⟩
abbrev S65536x256x1 : Shape := ⟨3, ![65536, 256, 1]⟩
abbrev S65536x256x2 : Shape := ⟨3, ![65536, 256, 2]⟩
abbrev S65536x512 : Shape := ⟨2, ![65536, 512]⟩
abbrev S65536x512x1 : Shape := ⟨3, ![65536, 512, 1]⟩
abbrev S65536x512x2 : Shape := ⟨3, ![65536, 512, 2]⟩
abbrev S65536x1024 : Shape := ⟨2, ![65536, 1024]⟩

abbrev nBuf : Space → Nat
  | .hbm => 103
  | .vmem => 0
  | .smem => 0
  | _ => 0

abbrev bufTy : (tb : Table) → Fin (tcTables nBuf tb) → BufTy
  | .hbm, ⟨0, _⟩ => ⟨S65536x1023, .f32⟩
  | .hbm, ⟨1, _⟩ => ⟨S_, .f32⟩
  | .hbm, ⟨2, _⟩ => ⟨S65536x1, .f32⟩
  | .hbm, ⟨3, _⟩ => ⟨S65536x1, .f32⟩
  | .hbm, ⟨4, _⟩ => ⟨S65536x1, .f32⟩
  | .hbm, ⟨5, _⟩ => ⟨S_, .f32⟩
  | .hbm, ⟨6, _⟩ => ⟨S65536x1, .f32⟩
  | .hbm, ⟨7, _⟩ => ⟨S65536x1, .f32⟩
  | .hbm, ⟨8, _⟩ => ⟨S65536x1, .f32⟩
  | .hbm, ⟨9, _⟩ => ⟨S65536x1x1, .f32⟩
  | .hbm, ⟨10, _⟩ => ⟨S65536x1x1, .f32⟩
  | .hbm, ⟨11, _⟩ => ⟨S65536x1x2, .f32⟩
  | .hbm, ⟨12, _⟩ => ⟨S65536x2, .f32⟩
  | .hbm, ⟨13, _⟩ => ⟨S65536x2, .f32⟩
  | .hbm, ⟨14, _⟩ => ⟨S65536x2, .f32⟩
  | .hbm, ⟨15, _⟩ => ⟨S_, .f32⟩
  | .hbm, ⟨16, _⟩ => ⟨S65536x2, .f32⟩
  | .hbm, ⟨17, _⟩ => ⟨S65536x2, .f32⟩
  | .hbm, ⟨18, _⟩ => ⟨S65536x2, .f32⟩
  | .hbm, ⟨19, _⟩ => ⟨S65536x2x1, .f32⟩
  | .hbm, ⟨20, _⟩ => ⟨S65536x2x1, .f32⟩
  | .hbm, ⟨21, _⟩ => ⟨S65536x2x2, .f32⟩
  | .hbm, ⟨22, _⟩ => ⟨S65536x4, .f32⟩
  | .hbm, ⟨23, _⟩ => ⟨S65536x4, .f32⟩
  | .hbm, ⟨24, _⟩ => ⟨S65536x4, .f32⟩
  | .hbm, ⟨25, _⟩ => ⟨S_, .f32⟩
  | .hbm, ⟨26, _⟩ => ⟨S65536x4, .f32⟩
  | .hbm, ⟨27, _⟩ => ⟨S65536x4, .f32⟩
  | .hbm, ⟨28, _⟩ => ⟨S65536x4, .f32⟩
  | .hbm, ⟨29, _⟩ => ⟨S65536x4x1, .f32⟩
  | .hbm, ⟨30, _⟩ => ⟨S65536x4x1, .f32⟩
  | .hbm, ⟨31, _⟩ => ⟨S65536x4x2, .f32⟩
  | .hbm, ⟨32, _⟩ => ⟨S65536x8, .f32⟩
  | .hbm, ⟨33, _⟩ => ⟨S65536x8, .f32⟩
  | .hbm, ⟨34, _⟩ => ⟨S65536x8, .f32⟩
  | .hbm, ⟨35, _⟩ => ⟨S_, .f32⟩
  | .hbm, ⟨36, _⟩ => ⟨S65536x8, .f32⟩
  | .hbm, ⟨37, _⟩ => ⟨S65536x8, .f32⟩
  | .hbm, ⟨38, _⟩ => ⟨S65536x8, .f32⟩
  | .hbm, ⟨39, _⟩ => ⟨S65536x8x1, .f32⟩
  | .hbm, ⟨40, _⟩ => ⟨S65536x8x1, .f32⟩
  | .hbm, ⟨41, _⟩ => ⟨S65536x8x2, .f32⟩
  | .hbm, ⟨42, _⟩ => ⟨S65536x16, .f32⟩
  | .hbm, ⟨43, _⟩ => ⟨S65536x16, .f32⟩
  | .hbm, ⟨44, _⟩ => ⟨S65536x16, .f32⟩
  | .hbm, ⟨45, _⟩ => ⟨S_, .f32⟩
  | .hbm, ⟨46, _⟩ => ⟨S65536x16, .f32⟩
  | .hbm, ⟨47, _⟩ => ⟨S65536x16, .f32⟩
  | .hbm, ⟨48, _⟩ => ⟨S65536x16, .f32⟩
  | .hbm, ⟨49, _⟩ => ⟨S65536x16x1, .f32⟩
  | .hbm, ⟨50, _⟩ => ⟨S65536x16x1, .f32⟩
  | .hbm, ⟨51, _⟩ => ⟨S65536x16x2, .f32⟩
  | .hbm, ⟨52, _⟩ => ⟨S65536x32, .f32⟩
  | .hbm, ⟨53, _⟩ => ⟨S65536x32, .f32⟩
  | .hbm, ⟨54, _⟩ => ⟨S65536x32, .f32⟩
  | .hbm, ⟨55, _⟩ => ⟨S_, .f32⟩
  | .hbm, ⟨56, _⟩ => ⟨S65536x32, .f32⟩
  | .hbm, ⟨57, _⟩ => ⟨S65536x32, .f32⟩
  | .hbm, ⟨58, _⟩ => ⟨S65536x32, .f32⟩
  | .hbm, ⟨59, _⟩ => ⟨S65536x32x1, .f32⟩
  | .hbm, ⟨60, _⟩ => ⟨S65536x32x1, .f32⟩
  | .hbm, ⟨61, _⟩ => ⟨S65536x32x2, .f32⟩
  | .hbm, ⟨62, _⟩ => ⟨S65536x64, .f32⟩
  | .hbm, ⟨63, _⟩ => ⟨S65536x64, .f32⟩
  | .hbm, ⟨64, _⟩ => ⟨S65536x64, .f32⟩
  | .hbm, ⟨65, _⟩ => ⟨S_, .f32⟩
  | .hbm, ⟨66, _⟩ => ⟨S65536x64, .f32⟩
  | .hbm, ⟨67, _⟩ => ⟨S65536x64, .f32⟩
  | .hbm, ⟨68, _⟩ => ⟨S65536x64, .f32⟩
  | .hbm, ⟨69, _⟩ => ⟨S65536x64x1, .f32⟩
  | .hbm, ⟨70, _⟩ => ⟨S65536x64x1, .f32⟩
  | .hbm, ⟨71, _⟩ => ⟨S65536x64x2, .f32⟩
  | .hbm, ⟨72, _⟩ => ⟨S65536x128, .f32⟩
  | .hbm, ⟨73, _⟩ => ⟨S65536x128, .f32⟩
  | .hbm, ⟨74, _⟩ => ⟨S65536x128, .f32⟩
  | .hbm, ⟨75, _⟩ => ⟨S_, .f32⟩
  | .hbm, ⟨76, _⟩ => ⟨S65536x128, .f32⟩
  | .hbm, ⟨77, _⟩ => ⟨S65536x128, .f32⟩
  | .hbm, ⟨78, _⟩ => ⟨S65536x128, .f32⟩
  | .hbm, ⟨79, _⟩ => ⟨S65536x128x1, .f32⟩
  | .hbm, ⟨80, _⟩ => ⟨S65536x128x1, .f32⟩
  | .hbm, ⟨81, _⟩ => ⟨S65536x128x2, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S_, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256x1, .f32⟩
  | .hbm, ⟨90, _⟩ => ⟨S65536x256x1, .f32⟩
  | .hbm, ⟨91, _⟩ => ⟨S65536x256x2, .f32⟩
  | .hbm, ⟨92, _⟩ => ⟨S65536x512, .f32⟩
  | .hbm, ⟨93, _⟩ => ⟨S65536x512, .f32⟩
  | .hbm, ⟨94, _⟩ => ⟨S65536x512, .f32⟩
  | .hbm, ⟨95, _⟩ => ⟨S_, .f32⟩
  | .hbm, ⟨96, _⟩ => ⟨S65536x512, .f32⟩
  | .hbm, ⟨97, _⟩ => ⟨S65536x512, .f32⟩
  | .hbm, ⟨98, _⟩ => ⟨S65536x512, .f32⟩
  | .hbm, ⟨99, _⟩ => ⟨S65536x512x1, .f32⟩
  | .hbm, ⟨100, _⟩ => ⟨S65536x512x1, .f32⟩
  | .hbm, ⟨101, _⟩ => ⟨S65536x512x2, .f32⟩
  | .hbm, ⟨102, _⟩ => ⟨S65536x1024, .f32⟩
  | _, _ => ⟨S65536x1023, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_4 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_5 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_6 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_7 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_8 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_9 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  slices_S65536x1023_S65536x1_0_0 : S65536x1023.Slices ![0, 0] S65536x1
  bcast_S65536x1_S65536x1x1_0_1 : S65536x1.BroadcastsInDim S65536x1x1 (![0, 1] : Fin 2 → Fin S65536x1x1.rank)
  concatenates_S65536x1x1_S65536x1x1_S65536x1x2_d2 : Shape.Concatenates [S65536x1x1, S65536x1x1] S65536x1x2 2
  shapeCasts_S65536x1x2_S65536x2 : S65536x1x2.ShapeCasts S65536x2
  slices_S65536x1023_S65536x2_0_1 : S65536x1023.Slices ![0, 1] S65536x2
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  concatenates_S65536x2x1_S65536x2x1_S65536x2x2_d2 : Shape.Concatenates [S65536x2x1, S65536x2x1] S65536x2x2 2
  shapeCasts_S65536x2x2_S65536x4 : S65536x2x2.ShapeCasts S65536x4
  slices_S65536x1023_S65536x4_0_3 : S65536x1023.Slices ![0, 3] S65536x4
  bcast_S_S65536x4 : S_.BroadcastsInDim S65536x4 (![] : Fin 0 → Fin S65536x4.rank)
  bcast_S65536x4_S65536x4x1_0_1 : S65536x4.BroadcastsInDim S65536x4x1 (![0, 1] : Fin 2 → Fin S65536x4x1.rank)
  concatenates_S65536x4x1_S65536x4x1_S65536x4x2_d2 : Shape.Concatenates [S65536x4x1, S65536x4x1] S65536x4x2 2
  shapeCasts_S65536x4x2_S65536x8 : S65536x4x2.ShapeCasts S65536x8
  slices_S65536x1023_S65536x8_0_7 : S65536x1023.Slices ![0, 7] S65536x8
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  concatenates_S65536x8x1_S65536x8x1_S65536x8x2_d2 : Shape.Concatenates [S65536x8x1, S65536x8x1] S65536x8x2 2
  shapeCasts_S65536x8x2_S65536x16 : S65536x8x2.ShapeCasts S65536x16
  slices_S65536x1023_S65536x16_0_15 : S65536x1023.Slices ![0, 15] S65536x16
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  shapeCasts_S65536x16x2_S65536x32 : S65536x16x2.ShapeCasts S65536x32
  slices_S65536x1023_S65536x32_0_31 : S65536x1023.Slices ![0, 31] S65536x32
  bcast_S_S65536x32 : S_.BroadcastsInDim S65536x32 (![] : Fin 0 → Fin S65536x32.rank)
  bcast_S65536x32_S65536x32x1_0_1 : S65536x32.BroadcastsInDim S65536x32x1 (![0, 1] : Fin 2 → Fin S65536x32x1.rank)
  concatenates_S65536x32x1_S65536x32x1_S65536x32x2_d2 : Shape.Concatenates [S65536x32x1, S65536x32x1] S65536x32x2 2
  shapeCasts_S65536x32x2_S65536x64 : S65536x32x2.ShapeCasts S65536x64
  slices_S65536x1023_S65536x64_0_63 : S65536x1023.Slices ![0, 63] S65536x64
  bcast_S_S65536x64 : S_.BroadcastsInDim S65536x64 (![] : Fin 0 → Fin S65536x64.rank)
  bcast_S65536x64_S65536x64x1_0_1 : S65536x64.BroadcastsInDim S65536x64x1 (![0, 1] : Fin 2 → Fin S65536x64x1.rank)
  concatenates_S65536x64x1_S65536x64x1_S65536x64x2_d2 : Shape.Concatenates [S65536x64x1, S65536x64x1] S65536x64x2 2
  shapeCasts_S65536x64x2_S65536x128 : S65536x64x2.ShapeCasts S65536x128
  slices_S65536x1023_S65536x128_0_127 : S65536x1023.Slices ![0, 127] S65536x128
  bcast_S_S65536x128 : S_.BroadcastsInDim S65536x128 (![] : Fin 0 → Fin S65536x128.rank)
  bcast_S65536x128_S65536x128x1_0_1 : S65536x128.BroadcastsInDim S65536x128x1 (![0, 1] : Fin 2 → Fin S65536x128x1.rank)
  concatenates_S65536x128x1_S65536x128x1_S65536x128x2_d2 : Shape.Concatenates [S65536x128x1, S65536x128x1] S65536x128x2 2
  shapeCasts_S65536x128x2_S65536x256 : S65536x128x2.ShapeCasts S65536x256
  slices_S65536x1023_S65536x256_0_255 : S65536x1023.Slices ![0, 255] S65536x256
  bcast_S_S65536x256 : S_.BroadcastsInDim S65536x256 (![] : Fin 0 → Fin S65536x256.rank)
  bcast_S65536x256_S65536x256x1_0_1 : S65536x256.BroadcastsInDim S65536x256x1 (![0, 1] : Fin 2 → Fin S65536x256x1.rank)
  concatenates_S65536x256x1_S65536x256x1_S65536x256x2_d2 : Shape.Concatenates [S65536x256x1, S65536x256x1] S65536x256x2 2
  shapeCasts_S65536x256x2_S65536x512 : S65536x256x2.ShapeCasts S65536x512
  slices_S65536x1023_S65536x512_0_511 : S65536x1023.Slices ![0, 511] S65536x512
  bcast_S_S65536x512 : S_.BroadcastsInDim S65536x512 (![] : Fin 0 → Fin S65536x512.rank)
  bcast_S65536x512_S65536x512x1_0_1 : S65536x512.BroadcastsInDim S65536x512x1 (![0, 1] : Fin 2 → Fin S65536x512x1.rank)
  concatenates_S65536x512x1_S65536x512x1_S65536x512x2_d2 : Shape.Concatenates [S65536x512x1, S65536x512x1] S65536x512x2 2
  shapeCasts_S65536x512x2_S65536x1024 : S65536x512x2.ShapeCasts S65536x1024

variable [Facts₀]

class Facts : Prop extends Facts₀ where

variable [Facts]
-- ==== Proof.SplitTree.lean ====
/-
  The binary split tree, as mathematics, and the two interleavings that build one level of it.

  A row of split fractions `a 0, a 1, …` (level-major: the `2^d` fractions of depth `d` sit at positions
  `2^d - 1 … 2^(d+1) - 2`) determines the probability of every node: the root has probability `1`, and node `n`
  of depth `d` with fraction `α = a (2^d - 1 + n)` hands `p · α` to its left child `2n` and `p · (1 - α)` to
  its right child `2n + 1`. `tree a d n` is the probability of node `n` of depth `d`. Nothing below uses any
  law of the extended reals: both programs multiply and subtract in the same order, so the statement is an
  identity of terms, and the work is in the indices.

  One level of the tree is computed by laying the left products and the right products side by side and
  merging the new unit-thick axis with its neighbour: with the node axis LEADING and the new axis second
  (`interleave_rows`: [L, W] twice → [L, 2, W] → [2L, W]) or with the node axis TRAILING and the new axis
  last (`interleave_cols`: [B, L] twice → [B, L, 2] → [B, 2L]). Either way position `j` of the merged axis
  reads the first operand at `j / 2` when `j` is even and the second at `j / 2` when `j` is odd.
-/
import Idealize.ShloMosaic.Lib.ValueIdx
import Idealize.ShloMosaic.Lib.ValueLayout

noncomputable section

namespace Cert.SplitTree

open Idealize.ShloMosaic Idealize.ShloMosaic.ValueIdx

/-- The number one, as the float word both programs splat. -/
def one : EReal := Ideal.ofBits .f32 0x3F800000#32

/-- The probability of node `n` of depth `d`, from the row `a` of split fractions. -/
def tree (a : ℕ → EReal) : ℕ → ℕ → EReal
  | 0, _ => one
  | d + 1, n =>
    if n % 2 = 0 then tree a d (n / 2) * a (2 ^ d - 1 + n / 2)
    else tree a d (n / 2) * (one - a (2 ^ d - 1 + n / 2))

theorem tree_zero (a : ℕ → EReal) (n : ℕ) : tree a 0 n = one := rfl

theorem tree_succ (a : ℕ → EReal) (d n : ℕ) :
    tree a (d + 1) n = if n % 2 = 0 then tree a d (n / 2) * a (2 ^ d - 1 + n / 2)
      else tree a d (n / 2) * (one - a (2 ^ d - 1 + n / 2)) := rfl

section Interleave
variable {α : Type}

/-- A unit-thick middle axis added by a shape cast: [L, W] read as [L, 1, W]. -/
theorem shapeCast_mid_unit_apply {L W : ℕ} (x : (⟨2, ![L, W]⟩ : Shape).Idx → α)
    (h : (⟨2, ![L, W]⟩ : Shape).ShapeCasts ⟨3, ![L, 1, W]⟩) (n : Fin L) (u : Fin 1) (q : Fin W) :
    shapeCast ⟨3, ![L, 1, W]⟩ x h (ix3 n u q) = x (ix2 n q) :=
  shapeCast_apply x h _ _ (by
    have hu : u.val = 0 := by omega
    rw [Shape.rowMajor_val_three, Shape.rowMajor_val_two]
    show n.val * W + q.val = (n.val * 1 + u.val) * W + q.val
    rw [hu, Nat.mul_one, Nat.add_zero])

/-- Node axis leading: two [L, W] arrays laid side by side on a new second axis and merged to [2L, W]. Row `j`
    of the result is row `j / 2` of the first array when `j` is even, of the second when `j` is odd. -/
theorem interleave_rows {L L2 W : ℕ} (hL2 : L2 = 2 * L) (x₁ x₂ : (⟨2, ![L, W]⟩ : Shape).Idx → α)
    (hc1 : (⟨2, ![L, W]⟩ : Shape).ShapeCasts ⟨3, ![L, 1, W]⟩)
    (hcat : Shape.Concatenates [(⟨3, ![L, 1, W]⟩ : Shape), ⟨3, ![L, 1, W]⟩] ⟨3, ![L, 2, W]⟩ 1)
    (hc2 : (⟨3, ![L, 2, W]⟩ : Shape).ShapeCasts ⟨2, ![L2, W]⟩)
    (j : Fin L2) (q : Fin W) (n : Fin L) (hn : n.val = j.val / 2) :
    shapeCast ⟨2, ![L2, W]⟩ (concatenate ⟨3, ![L, 2, W]⟩ 1
        [⟨⟨3, ![L, 1, W]⟩, shapeCast ⟨3, ![L, 1, W]⟩ x₁ hc1⟩, ⟨⟨3, ![L, 1, W]⟩, shapeCast ⟨3, ![L, 1, W]⟩ x₂ hc1⟩] hcat) hc2 (ix2 j q)
      = if j.val % 2 = 0 then x₁ (ix2 n q) else x₂ (ix2 n q) := by
  have hs : j.val % 2 < 2 := Nat.mod_lt _ (by norm_num)
  refine (shapeCast_apply _ hc2 (ix2 j q) (ix3 n ⟨j.val % 2, hs⟩ q) ?_).trans ?_
  · rw [Shape.rowMajor_val_three, Shape.rowMajor_val_two]
    show (n.val * 2 + j.val % 2) * W + q.val = j.val * W + q.val
    have e : n.val * 2 + j.val % 2 = j.val := by omega
    rw [e]
  · by_cases h0 : j.val % 2 = 0
    · rw [if_pos h0]
      refine (concatenate_pair_apply_left (t := ⟨3, ![L, 2, W]⟩) (1 : Fin 3) _ _ hcat _ rfl (ix3 n (0 : Fin 1) q) ?_).trans
        (shapeCast_mid_unit_apply x₁ hc1 n 0 q)
      intro b
      match b with
      | ⟨0, _⟩ => rfl
      | ⟨1, _⟩ => exact h0.symm
      | ⟨2, _⟩ => rfl
    · rw [if_neg h0]
      have h1 : j.val % 2 = 1 := by omega
      refine (concatenate_pair_apply_right (t := ⟨3, ![L, 2, W]⟩) (1 : Fin 3) _ _ hcat _ rfl rfl (ix3 n (0 : Fin 1) q) ?_ ?_).trans
        (shapeCast_mid_unit_apply x₂ hc1 n 0 q)
      · intro b hb
        match b, hb with
        | ⟨0, _⟩, _ => rfl
        | ⟨1, _⟩, hb => exact absurd rfl hb
        | ⟨2, _⟩, _ => rfl
      · show (0 : ℕ) + 1 = j.val % 2
        omega

/-- Node axis trailing: two [B, L] arrays given a new unit-thick last axis, laid side by side on it and merged
    to [B, 2L]. Column `j` of the result is column `j / 2` of the first array when `j` is even, of the second
    when `j` is odd. -/
theorem interleave_cols {B L L2 : ℕ} (hL2 : L2 = 2 * L) (x₁ x₂ : (⟨2, ![B, L]⟩ : Shape).Idx → α)
    (hb : (⟨2, ![B, L]⟩ : Shape).BroadcastsInDim ⟨3, ![B, L, 1]⟩ ![0, 1])
    (hcat : Shape.Concatenates [(⟨3, ![B, L, 1]⟩ : Shape), ⟨3, ![B, L, 1]⟩] ⟨3, ![B, L, 2]⟩ 2)
    (hc : (⟨3, ![B, L, 2]⟩ : Shape).ShapeCasts ⟨2, ![B, L2]⟩)
    (b : Fin B) (j : Fin L2) (n : Fin L) (hn : n.val = j.val / 2) :
    shapeCast ⟨2, ![B, L2]⟩ (concatenate ⟨3, ![B, L, 2]⟩ 2
        [⟨⟨3, ![B, L, 1]⟩, broadcastInDim ⟨3, ![B, L, 1]⟩ ![0, 1] hb x₁⟩,
         ⟨⟨3, ![B, L, 1]⟩, broadcastInDim ⟨3, ![B, L, 1]⟩ ![0, 1] hb x₂⟩] hcat) hc (ix2 b j)
      = if j.val % 2 = 0 then x₁ (ix2 b n) else x₂ (ix2 b n) := by
  have hs : j.val % 2 < 2 := Nat.mod_lt _ (by norm_num)
  have hLpos : 0 < L := Nat.pos_of_ne_zero (fun h => by have := n.isLt; omega)
  -- an operand coordinate under the broadcast: zero on a unit axis, the result's coordinate otherwise
  have hbc : ∀ (x : (⟨2, ![B, L]⟩ : Shape).Idx → α),
      broadcastInDim ⟨3, ![B, L, 1]⟩ ![0, 1] hb x (ix3 b n (0 : Fin 1)) = x (ix2 b n) := fun x =>
    broadcastInDim_apply _ hb x _ _ (fun a => by
      match a with
      | ⟨0, _⟩ =>
        show b.val = if B = 1 then 0 else b.val
        split
        · have := b.isLt; omega
        · rfl
      | ⟨1, _⟩ =>
        show n.val = if L = 1 then 0 else n.val
        split
        · have := n.isLt; omega
        · rfl)
  refine (shapeCast_apply _ hc (ix2 b j) (ix3 b n ⟨j.val % 2, hs⟩) ?_).trans ?_
  · rw [Shape.rowMajor_val_three, Shape.rowMajor_val_two]
    show (b.val * L + n.val) * 2 + j.val % 2 = b.val * L2 + j.val
    subst hL2
    have e : n.val * 2 + j.val % 2 = j.val := by omega
    calc (b.val * L + n.val) * 2 + j.val % 2 = b.val * (2 * L) + (n.val * 2 + j.val % 2) := by ring
      _ = b.val * (2 * L) + j.val := by rw [e]
  · by_cases h0 : j.val % 2 = 0
    · rw [if_pos h0]
      refine (concatenate_pair_apply_left (t := ⟨3, ![B, L, 2]⟩) (2 : Fin 3) _ _ hcat _ rfl (ix3 b n (0 : Fin 1)) ?_).trans (hbc x₁)
      intro a
      match a with
      | ⟨0, _⟩ => rfl
      | ⟨1, _⟩ => rfl
      | ⟨2, _⟩ => exact h0.symm
    · rw [if_neg h0]
      have h1 : j.val % 2 = 1 := by omega
      refine (concatenate_pair_apply_right (t := ⟨3, ![B, L, 2]⟩) (2 : Fin 3) _ _ hcat _ rfl rfl (ix3 b n (0 : Fin 1)) ?_ ?_).trans (hbc x₂)
      · intro a ha
        match a, ha with
        | ⟨0, _⟩, _ => rfl
        | ⟨1, _⟩, _ => rfl
        | ⟨2, _⟩, ha => exact absurd rfl ha
      · show (0 : ℕ) + 1 = j.val % 2
        omega

end Interleave

end Cert.SplitTree

end
-- ==== Proof.Levels.lean ====
/-
  One level of the split tree in each of the two layouts, stated against `tree`.

  A row of a matrix is read as a sequence `rowOf x b : ℕ → EReal` (zero past the row's end, never reached).
  The fractions of depth `d` are the entries `2^d - 1 … 2^(d+1) - 2` of the row.

  * Node axis trailing (`level_cols`): the current probabilities are [B, L], the fractions the slice of the
    input's columns from `2^d - 1`; the level is `interleave_cols` of `cur · a` and `cur · (1 - a)`.
  * Node axis leading (`level_rows`): everything is transposed, and the input has been given one extra leading
    row, so that fraction `k` of a row sits at row `k + 1` (`pad_transpose_apply`) and the fractions of depth
    `d` are the rows from `2^d`; the level is `interleave_rows` of the same two products.
-/
import proofs.«162643_j39118562132378_2_alg».proof.Proof.SplitTree
import Idealize.ShloMosaic.Lib.IdealHost

noncomputable section

namespace Cert.SplitTree

open Idealize.ShloMosaic Idealize.ShloMosaic.ValueIdx

/-- Row `b` of a matrix as a sequence. -/
def rowOf {B M : ℕ} (x : (⟨2, ![B, M]⟩ : Shape).Idx → EReal) (b : Fin B) : ℕ → EReal :=
  fun k => if h : k < M then x (ix2 b ⟨k, h⟩) else 0

theorem rowOf_of_lt {B M : ℕ} (x : (⟨2, ![B, M]⟩ : Shape).Idx → EReal) (b : Fin B) (k : ℕ) (h : k < M) :
    rowOf x b k = x (ix2 b ⟨k, h⟩) := dif_pos h

/-- THE SPECIFICATION: from the [65536, 1023] matrix of split fractions, the [65536, 1024] matrix whose row `b` holds
    the 1024 leaf probabilities of the depth-10 tree of row `b`. -/
def leafProbs (x : (⟨2, ![65536, 1023]⟩ : Shape).Idx → EReal) : (⟨2, ![65536, 1024]⟩ : Shape).Idx → EReal :=
  fun i => tree (rowOf x (i 0)) 10 (i 1).val

theorem leafProbs_apply (x : (⟨2, ![65536, 1023]⟩ : Shape).Idx → EReal) (b : Fin 65536) (j : Fin 1024) :
    leafProbs x (ix2 b j) = tree (rowOf x b) 10 j.val := rfl

/-- A slice of columns from `o` reads the row's sequence from `o`. -/
theorem slice_cols_apply {B M L : ℕ} (o : ℕ) (x : (⟨2, ![B, M]⟩ : Shape).Idx → EReal)
    (hs : (⟨2, ![B, M]⟩ : Shape).Slices ![0, o] ⟨2, ![B, L]⟩) (b : Fin B) (n : Fin L) :
    extractStridedSlice ⟨2, ![B, L]⟩ ![0, o] x hs (ix2 b n) = rowOf x b (o + n.val) := by
  have hlt : o + n.val < M := Nat.lt_of_lt_of_le (Nat.add_lt_add_left n.isLt o) (hs.2 1)
  rw [slice2_axis1_apply o x hs b n ⟨o + n.val, hlt⟩ rfl, rowOf_of_lt x b _ hlt]

/-- The transposed matrix under one extra leading row `z`: row `k ≥ 1`, column `q` is entry `k - 1` of
    row `q` of the matrix. -/
theorem pad_transpose_apply {A M N : ℕ} (hN : N = M + 1) (x : (⟨2, ![A, M]⟩ : Shape).Idx → EReal)
    (z : (⟨2, ![1, A]⟩ : Shape).Idx → EReal)
    (ht : (⟨2, ![A, M]⟩ : Shape).Transposes [1, 0] ⟨2, ![M, A]⟩)
    (hcat : Shape.Concatenates [(⟨2, ![1, A]⟩ : Shape), ⟨2, ![M, A]⟩] ⟨2, ![N, A]⟩ 0)
    (k : Fin N) (q : Fin A) (hk : 1 ≤ k.val) :
    concatenate ⟨2, ![N, A]⟩ 0 [⟨⟨2, ![1, A]⟩, z⟩, ⟨⟨2, ![M, A]⟩, transpose ⟨2, ![M, A]⟩ [1, 0] x ht⟩] hcat (ix2 k q)
      = rowOf x q (k.val - 1) := by
  have hk1 : k.val - 1 < M := by have := k.isLt; omega
  refine (concatenate_pair_apply_right (t := ⟨2, ![N, A]⟩) (0 : Fin 2) _ _ hcat _ rfl rfl
    (ix2 ⟨k.val - 1, hk1⟩ q) ?_ ?_).trans ?_
  · intro b hb
    match b, hb with
    | ⟨0, _⟩, hb => exact absurd rfl hb
    | ⟨1, _⟩, _ => rfl
  · show k.val - 1 + 1 = k.val
    omega
  · rw [transpose_ix2_apply x ht ⟨k.val - 1, hk1⟩ q, rowOf_of_lt x q _ hk1]

/-- The scalar one broadcast to any shape reads one everywhere. -/
theorem splat_one_apply {T : Shape} (h : (⟨0, ![]⟩ : Shape).BroadcastsInDim T ![]) (i : T.Idx) :
    broadcastInDim T ![] h (constant (F := Ideal) ⟨0, ![]⟩ .f32 0x3F800000#32) i = one :=
  broadcastInDim_scalar_apply h _ i

/-- One level, node axis trailing. -/
theorem level_cols (d : ℕ) {B L L2 : ℕ} (o : ℕ) (hL : L = 2 ^ d) (hL2 : L2 = 2 * L) (ho : o = 2 ^ d - 1)
    (r : Fin B → ℕ → EReal) (cur a u : FVec Ideal ⟨2, ![B, L]⟩ .f32)
    (hb : (⟨2, ![B, L]⟩ : Shape).BroadcastsInDim ⟨3, ![B, L, 1]⟩ ![0, 1])
    (hcat : Shape.Concatenates [(⟨3, ![B, L, 1]⟩ : Shape), ⟨3, ![B, L, 1]⟩] ⟨3, ![B, L, 2]⟩ 2)
    (hc : (⟨3, ![B, L, 2]⟩ : Shape).ShapeCasts ⟨2, ![B, L2]⟩)
    (hcur : ∀ (b : Fin B) (n : Fin L), cur (ix2 b n) = tree (r b) d n.val)
    (ha : ∀ (b : Fin B) (n : Fin L), a (ix2 b n) = r b (o + n.val))
    (hu : ∀ i, u i = one)
    (b : Fin B) (j : Fin L2) :
    shapeCast ⟨2, ![B, L2]⟩ (concatenate ⟨3, ![B, L, 2]⟩ 2
        [⟨⟨3, ![B, L, 1]⟩, broadcastInDim ⟨3, ![B, L, 1]⟩ ![0, 1] hb (mulf cur a)⟩,
         ⟨⟨3, ![B, L, 1]⟩, broadcastInDim ⟨3, ![B, L, 1]⟩ ![0, 1] hb (mulf cur (subf u a))⟩] hcat) hc (ix2 b j)
      = tree (r b) (d + 1) j.val := by
  have hn : j.val / 2 < L := by have := j.isLt; omega
  rw [interleave_cols hL2 _ _ hb hcat hc b j ⟨j.val / 2, hn⟩ rfl, tree_succ,
    mulf_apply, mulf_apply, subf_apply, hcur, ha, hu, ho]

/-- One level, node axis leading, over the padded transposed input `v`. -/
theorem level_rows (d : ℕ) {L L2 W N : ℕ} (hL : L = 2 ^ d) (hL2 : L2 = 2 * L) (hN : L2 ≤ N)
    (r : Fin W → ℕ → EReal) (v : FVec Ideal ⟨2, ![N, W]⟩ .f32) (cur u : FVec Ideal ⟨2, ![L, W]⟩ .f32)
    (hs : (⟨2, ![N, W]⟩ : Shape).Slices ![L, 0] ⟨2, ![L, W]⟩)
    (hc1 : (⟨2, ![L, W]⟩ : Shape).ShapeCasts ⟨3, ![L, 1, W]⟩)
    (hcat : Shape.Concatenates [(⟨3, ![L, 1, W]⟩ : Shape), ⟨3, ![L, 1, W]⟩] ⟨3, ![L, 2, W]⟩ 1)
    (hc2 : (⟨3, ![L, 2, W]⟩ : Shape).ShapeCasts ⟨2, ![L2, W]⟩)
    (hcur : ∀ (n : Fin L) (q : Fin W), cur (ix2 n q) = tree (r q) d n.val)
    (hv : ∀ (k : Fin N) (q : Fin W), 1 ≤ k.val → v (ix2 k q) = r q (k.val - 1))
    (hu : ∀ i, u i = one)
    (j : Fin L2) (q : Fin W) :
    shapeCast ⟨2, ![L2, W]⟩ (concatenate ⟨3, ![L, 2, W]⟩ 1
        [⟨⟨3, ![L, 1, W]⟩, shapeCast ⟨3, ![L, 1, W]⟩ (mulf cur (extractStridedSlice ⟨2, ![L, W]⟩ ![L, 0] v hs)) hc1⟩,
         ⟨⟨3, ![L, 1, W]⟩, shapeCast ⟨3, ![L, 1, W]⟩
            (mulf cur (subf u (extractStridedSlice ⟨2, ![L, W]⟩ ![L, 0] v hs))) hc1⟩] hcat) hc2 (ix2 j q)
      = tree (r q) (d + 1) j.val := by
  have hp : 1 ≤ 2 ^ d := Nat.one_le_two_pow
  have hn : j.val / 2 < L := by have := j.isLt; omega
  have hk : L + j.val / 2 < N := by have := j.isLt; omega
  have ha : extractStridedSlice ⟨2, ![L, W]⟩ ![L, 0] v hs (ix2 ⟨j.val / 2, hn⟩ q) = r q (2 ^ d - 1 + j.val / 2) := by
    rw [slice2_axis0_apply L v hs ⟨j.val / 2, hn⟩ q ⟨L + j.val / 2, hk⟩ rfl, hv _ _ (by show 1 ≤ L + j.val / 2; omega)]
    refine congrArg (r q) ?_
    show L + j.val / 2 - 1 = 2 ^ d - 1 + j.val / 2
    omega
  rw [interleave_rows hL2 _ _ hc1 hcat hc2 j q ⟨j.val / 2, hn⟩ rfl, tree_succ,
    mulf_apply, mulf_apply, subf_apply, hcur, ha, hu]

end Cert.SplitTree

end
-- ==== Proof.TileValue.lean ====
/-
  The kernel body's arithmetic, read at an index.

  The body works on the transposed tile: rows are tree nodes, columns are the tile's batch rows. Its first value
  is the tile transposed under one extra leading row, so fraction `k` of batch row `q` sits at row `k + 1`,
  column `q` (`padded_apply`). Five levels of the tree give the 32 probabilities of depth 5 (`depth5_of`), five
  more the 1024 leaves, and the last transpose puts the batch row first again (`leaves_of`): entry `(q, n)` of
  what the body stores is `tree` of row `q` of the tile at depth 10, node `n` (`leaves_apply`).
-/
import proofs.«162643_j39118562132378_2_alg».proof.Proof.Gen.KernelIdeal.Skeleton
import proofs.«162643_j39118562132378_2_alg».proof.Proof.Levels

noncomputable section

namespace Cert.KernelIdeal.TileValue

open Cert.KernelIdeal Cert.KernelIdeal.Gen Cert.SplitTree Idealize.ShloMosaic Idealize.ShloMosaic.ValueIdx

/-- Row `k ≥ 1`, column `q` of the padded transposed tile is entry `k - 1` of the tile's row `q`. -/
theorem padded_apply (x0 : Vec Ideal S1024x1023 .f32) (k : Fin 1024) (q : Fin 1024) (hk : 1 ≤ k.val) :
    k0_pay2 (F := Ideal) x0 (ix2 k q) = rowOf x0 q (k.val - 1) := by
  unfold k0_pay2
  exact pad_transpose_apply (A := 1024) (M := 1023) (N := 1024) rfl x0 _ _ _ k q hk

/-- After five levels: node `n` of depth 5 of the tree of row `q`, whatever sequences `r q` the padded
    transposed tile holds below its first row. -/
theorem depth5_of (r : Fin 1024 → ℕ → EReal) (x0 : Vec Ideal S1024x1023 .f32)
    (hv : ∀ (k : Fin 1024) (q : Fin 1024), 1 ≤ k.val → k0_pay2 (F := Ideal) x0 (ix2 k q) = r q (k.val - 1))
    (n : Fin 32) (q : Fin 1024) :
    k0_pay3 (F := Ideal) x0 (ix2 n q) = tree (r q) 5 n.val := by
  unfold k0_pay3
  refine level_rows 4 (L := 16) (L2 := 32) (W := 1024) (N := 1024) rfl rfl (by decide) r _ _ _ _ _ _ _ (fun n q => ?_) hv (fun _ => rfl) n q
  refine level_rows 3 (L := 8) (L2 := 16) (W := 1024) (N := 1024) rfl rfl (by decide) r _ _ _ _ _ _ _ (fun n q => ?_) hv (fun _ => rfl) n q
  refine level_rows 2 (L := 4) (L2 := 8) (W := 1024) (N := 1024) rfl rfl (by decide) r _ _ _ _ _ _ _ (fun n q => ?_) hv (fun _ => rfl) n q
  refine level_rows 1 (L := 2) (L2 := 4) (W := 1024) (N := 1024) rfl rfl (by decide) r _ _ _ _ _ _ _ (fun n q => ?_) hv (fun _ => rfl) n q
  refine level_rows 0 (L := 1) (L2 := 2) (W := 1024) (N := 1024) rfl rfl (by decide) r _ _ _ _ _ _ _ (fun n q => ?_) hv (fun _ => rfl) n q
  rfl

/-- The value the body stores: entry `(q, n)` is leaf `n` of the tree of row `q`, given the padded
    transposed tile `v` and the depth-5 probabilities `p`. -/
theorem leaves_of (r : Fin 1024 → ℕ → EReal) (v : FVec Ideal S1024x1024 .f32) (p : FVec Ideal S32x1024 .f32)
    (hv : ∀ (k : Fin 1024) (q : Fin 1024), 1 ≤ k.val → v (ix2 k q) = r q (k.val - 1))
    (hp : ∀ (n : Fin 32) (q : Fin 1024), p (ix2 n q) = tree (r q) 5 n.val)
    (q : Fin 1024) (n : Fin 1024) :
    k0_pay1 (F := Ideal) v p (ix2 q n) = tree (r q) 10 n.val := by
  unfold k0_pay1
  dsimp only
  refine (transpose_ix2_apply (a := 1024) (b := 1024) _ _ q n).trans ?_
  refine level_rows 9 (L := 512) (L2 := 1024) (W := 1024) (N := 1024) rfl rfl (by decide) r _ _ _ _ _ _ _ (fun n q => ?_) hv (fun _ => rfl) n q
  refine level_rows 8 (L := 256) (L2 := 512) (W := 1024) (N := 1024) rfl rfl (by decide) r _ _ _ _ _ _ _ (fun n q => ?_) hv (fun _ => rfl) n q
  refine level_rows 7 (L := 128) (L2 := 256) (W := 1024) (N := 1024) rfl rfl (by decide) r _ _ _ _ _ _ _ (fun n q => ?_) hv (fun _ => rfl) n q
  refine level_rows 6 (L := 64) (L2 := 128) (W := 1024) (N := 1024) rfl rfl (by decide) r _ _ _ _ _ _ _ (fun n q => ?_) hv (fun _ => rfl) n q
  refine level_rows 5 (L := 32) (L2 := 64) (W := 1024) (N := 1024) rfl rfl (by decide) r _ _ _ _ _ _ _ hp hv (fun _ => rfl) n q

/-- Entry `(q, n)` of what the body stores from the tile `x0` is leaf `n` of the tree of the tile's row `q`. -/
theorem leaves_apply (x0 : Vec Ideal S1024x1023 .f32) (q : Fin 1024) (n : Fin 1024) :
    k0_pay1 (F := Ideal) (k0_pay2 x0) (k0_pay3 x0) (ix2 q n) = tree (rowOf x0 q) 10 n.val :=
  leaves_of (fun q => rowOf x0 q) _ _ (fun k q hk => padded_apply x0 k q hk)
    (fun n q => depth5_of (fun q => rowOf x0 q) x0 (fun k q hk => padded_apply x0 k q hk) n q) q n

end Cert.KernelIdeal.TileValue

end
-- ==== Proof.ArrayValue.lean ====
/-
  From tiles to the whole array.

  The kernel runs on 64 tiles of 1024 batch rows. Tile `t` reads rows `1024 t … 1024 t + 1023` of the input (all
  1023 columns) and writes the same rows of the output (all 1024 columns). A row of the output depends on the
  same row of the input only, so what tile `t` writes back is block `t` of ONE function of the whole input, the
  matrix of leaf probabilities (`flushed_eq`); the blocks tile the output — row `i` lies in tile `i / 1024`
  (`cover`) — so after the run the output array is that matrix (`final`, `run`).
-/
import proofs.«162643_j39118562132378_2_alg».proof.Proof.Gen.KernelIdeal.Value
import proofs.«162643_j39118562132378_2_alg».proof.Proof.TileValue

noncomputable section

namespace Cert.KernelIdeal.ArrayValue

open Cert.KernelIdeal Cert.KernelIdeal.Gen Cert.KernelIdeal.Value Cert.KernelIdeal.TileValue Cert.SplitTree
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- One entry of a tile's result: if row `y 0` of the tile `x0` is row `i 0` of the matrix `X` and the columns
    `y 1`, `i 1` are the same number, the entry the body stores at `y` is the leaf probability at `i`. -/
theorem tile_eq (x0 : Vec Ideal S1024x1023 .f32) (X : S65536x1023.Idx → EReal) (y : S1024x1024.Idx) (i : S65536x1024.Idx)
    (hrow : ∀ k : Fin 1023, x0 (ix2 (y 0) k) = X (ix2 (i 0) k)) (hcol : (i 1).val = (y 1).val) :
    k0_pay1 (F := Ideal) (k0_pay2 x0) (k0_pay3 x0) y = leafProbs X i := by
  obtain ⟨q, n, rfl⟩ : ∃ (q : Fin 1024) (n : Fin 1024), y = ix2 q n := ⟨y 0, y 1, eq_ix2 y⟩
  obtain ⟨b, j, rfl⟩ : ∃ (b : Fin 65536) (j : Fin 1024), i = ix2 b j := ⟨i 0, i 1, eq_ix2 i⟩
  have hr : rowOf x0 q = rowOf X b := by
    funext k
    unfold rowOf
    by_cases h : k < 1023
    · rw [dif_pos h, dif_pos h]; exact hrow ⟨k, h⟩
    · rw [dif_neg h, dif_neg h]
  have hj : j.val = n.val := hcol
  rw [leaves_apply x0 q n, leafProbs_apply, hr, hj]

/-- The printed index maps, decided over the 64 tiles: both windows sit at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT TILE `t` WRITES BACK is block `t` of the leaf probabilities of the input as the region finds it. -/
theorem flushed_eq (c : Dev nD) (t : Fin cfg0.N) :
    (dats m 0 c).flushed 1 t = ((cfg0.win 1).blk t).view.read (Elt Ideal) (leafProbs (V m c main_arg0)) := by
  rw [flushed1]
  unfold out0_1
  rw [View.canon_unit_zero zero_offsets]
  simp only [View.ld_unit_zero (S := S1024x1023) zero_offsets]
  obtain ⟨e0, e1, e2, e3⟩ := idx_facts t
  funext y
  show k0_pay1 (F := Ideal) (k0_pay2 (iblk m c 0 t)) (k0_pay3 (iblk m c 0 t)) y
    = leafProbs (V m c main_arg0) (((cfg0.win 1).blk t).view.emb y)
  refine tile_eq _ _ _ _ (fun k => ?_) ?_
  · show V m c main_arg0 (((cfg0.win 0).blk t).view.emb (ix2 (y 0) k))
      = V m c main_arg0 (ix2 ((((cfg0.win 1).blk t).view.emb y) 0) k)
    refine congrArg (V m c main_arg0) ?_
    funext a
    apply Fin.ext
    match a with
    | ⟨0, _⟩ =>
      show win0_0.index t (0 : Fin 2) * 1024 + 1 * (y 0).val = win0_1.index t (0 : Fin 2) * 1024 + 1 * (y 0).val
      omega
    | ⟨1, _⟩ =>
      show win0_0.index t (1 : Fin 2) * 1023 + 1 * k.val = k.val
      omega
  · show win0_1.index t (1 : Fin 2) * 1024 + 1 * (y 1).val = (y 1).val
    omega

/-- An index of the output is in tile `t`'s block iff each coordinate is in the block's range on its axis. -/
theorem mem_blk (t : Fin cfg0.N) (i : S65536x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the output is in the block of the tile its row falls in. -/
theorem cover (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  have hN : grid0.N = 64 := N_0
  obtain ⟨t, ht⟩ : ∃ t : Fin cfg0.N, t.val = (i 0).val / 1024 :=
    ⟨⟨(i 0).val / 1024, by show (i 0).val / 1024 < grid0.N; omega⟩, rfl⟩
  obtain ⟨-, -, e2, e3⟩ := idx_facts t
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- THE OUTPUT ARRAY after the run: the leaf probabilities of the input as the region finds it. -/
theorem final (c : Dev nD) : (dats m 0 c).arrAt 1 cfg0.N = leafProbs (V m c main_arg0) :=
  (dats m 0 c).arrAt_eq_of_cover 1 (leafProbs (V m c main_arg0)) (fun t _ => flushed_eq m c t) cover

/-- The kernel's run re-posted: the output array at the leaf probabilities of the input, the input unchanged. -/
theorem run : θ_run defs (onTc (τ := τ) (main (F := Ideal))) ⟨m, fun _ => 0, ρ⟩ fun r => ∀ c : Dev nD,
      r.2.mem ((c : Thread nD τ).loc main_v0) = leafProbs (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefSteps.lean ====
/-
  The reference's run, level by level.

  The reference's @main is 102 host operations: twelve that build depth 1 from the root (level 0) and ten for each
  further depth (the slice of the level's fractions, the two products, their interleaving). Each level uses the
  previous level's probabilities twice, so composing all the operations into one term doubles it ten times; the run
  is read here ONE LEVEL AT A TIME instead. From any contents `W` of the buffers, the operations of level `k` leave
  the input where it was (`level_k_arg`) and, if the level's incoming buffer holds depth `k` of the tree of each
  input row, its outgoing buffer holds depth `k + 1` (`level_k_spec`, by `level_cols`). Chained over the ten levels
  (`out_spec`), the result buffer ends at `leafProbs` of the input (`out_eq`), the input unchanged (`arg_eq`);
  `run` is the library's run of a straight line of host operations (`StableHlo.run_seq`) re-posted with these.
-/
import proofs.«162643_j39118562132378_2_alg».proof.Proof.Gen.ReferenceIdeal
import proofs.«162643_j39118562132378_2_alg».proof.Proof.Levels
import Idealize.ShloMosaic.Lib.StableHlo.Run
import Idealize.ShloMosaic.Lib.Pipeline.Regions

noncomputable section

namespace Cert.ReferenceIdeal.Steps

open Cert.ReferenceIdeal Cert.ReferenceIdeal.Gen Cert.SplitTree
open Idealize.ShloMosaic Idealize.ShloMosaic.ValueIdx Idealize.ShloMosaic.TcCoe Idealize.SL.Sem Idealize.ShloMosaic.StableHlo

variable {F : FTy → Type} [FloatOps F]

/-! ## The operations, level by level (as the printed @main lists them) -/

abbrev level0 : List (HloOp τ sig (Elt F)) :=
  [ nullary main_cst (constant S_ .f32 0x3F800000#32),
    unary main_cst main_v0 (broadcastInDim S65536x1 ![] bcast_S_S65536x1 : (⟨S_, .f32⟩ : BufTy).Contents (Elt F) → (⟨S65536x1, .f32⟩ : BufTy).Contents (Elt F)),
    unary main_arg0 main_v1 ((extractStridedSlice S65536x1 ![0, 0] · slices_S65536x1023_S65536x1_0_0) : (⟨S65536x1023, .f32⟩ : BufTy).Contents (Elt F) → (⟨S65536x1, .f32⟩ : BufTy).Contents (Elt F)),
    binary main_v0 main_v1 main_v2 (mulf : (⟨S65536x1, .f32⟩ : BufTy).Contents (Elt F) → (⟨S65536x1, .f32⟩ : BufTy).Contents (Elt F) → (⟨S65536x1, .f32⟩ : BufTy).Contents (Elt F)),
    nullary main_cst_0 (constant S_ .f32 0x3F800000#32),
    unary main_cst_0 main_v3 (broadcastInDim S65536x1 ![] bcast_S_S65536x1 : (⟨S_, .f32⟩ : BufTy).Contents (Elt F) → (⟨S65536x1, .f32⟩ : BufTy).Contents (Elt F)),
    binary main_v3 main_v1 main_v4 (subf : (⟨S65536x1, .f32⟩ : BufTy).Contents (Elt F) → (⟨S65536x1, .f32⟩ : BufTy).Contents (Elt F) → (⟨S65536x1, .f32⟩ : BufTy).Contents (Elt F)),
    binary main_v0 main_v4 main_v5 (mulf : (⟨S65536x1, .f32⟩ : BufTy).Contents (Elt F) → (⟨S65536x1, .f32⟩ : BufTy).Contents (Elt F) → (⟨S65536x1, .f32⟩ : BufTy).Contents (Elt F)),
    unary main_v2 main_v6 (broadcastInDim S65536x1x1 ![0, 1] bcast_S65536x1_S65536x1x1_0_1 : (⟨S65536x1, .f32⟩ : BufTy).Contents (Elt F) → (⟨S65536x1x1, .f32⟩ : BufTy).Contents (Elt F)),
    unary main_v5 main_v7 (broadcastInDim S65536x1x1 ![0, 1] bcast_S65536x1_S65536x1x1_0_1 : (⟨S65536x1, .f32⟩ : BufTy).Contents (Elt F) → (⟨S65536x1x1, .f32⟩ : BufTy).Contents (Elt F)),
    binary main_v6 main_v7 main_v8 ((fun a b => concatenate S65536x1x2 2 [⟨S65536x1x1, a⟩, ⟨S65536x1x1, b⟩] concatenates_S65536x1x1_S65536x1x1_S65536x1x2_d2) : (⟨S65536x1x1, .f32⟩ : BufTy).Contents (Elt F) → (⟨S65536x1x1, .f32⟩ : BufTy).Contents (Elt F) → (⟨S65536x1x2, .f32⟩ : BufTy).Contents (Elt F)),
    reshape main_v8 main_v9 rfl shapeCasts_S65536x1x2_S65536x2 ]

abbrev level1 : List (HloOp τ sig (Elt F)) :=
  [ unary main_arg0 main_v10 ((extractStridedSlice S65536x2 ![0, 1] · slices_S65536x1023_S65536x2_0_1) : (⟨S65536x1023, .f32⟩ : BufTy).Contents (Elt F) → (⟨S65536x2, .f32⟩ : BufTy).Contents (Elt F)),
    binary main_v9 main_v10 main_v11 (mulf : (⟨S65536x2, .f32⟩ : BufTy).Contents (Elt F) → (⟨S65536x2, .f32⟩ : BufTy).Contents (Elt F) → (⟨S65536x2, .f32⟩ : BufTy).Contents (Elt F)),
    nullary main_cst_1 (constant S_ .f32 0x3F800000#32),
    unary main_cst_1 main_v12 (broadcastInDim S65536x2 ![] bcast_S_S65536x2 : (⟨S_, .f32⟩ : BufTy).Contents (Elt F) → (⟨S65536x2, .f32⟩ : BufTy).Contents (Elt F)),
    binary main_v12 main_v10 main_v13 (subf : (⟨S65536x2, .f32⟩ : BufTy).Contents (Elt F) → (⟨S65536x2, .f32⟩ : BufTy).Contents (Elt F) → (⟨S65536x2, .f32⟩ : BufTy).Contents (Elt F)),
    binary main_v9 main_v13 main_v14 (mulf : (⟨S65536x2, .f32⟩ : BufTy).Contents (Elt F) → (⟨S65536x2, .f32⟩ : BufTy).Contents (Elt F) → (⟨S65536x2, .f32⟩ : BufTy).Contents (Elt F)),
    unary main_v11 main_v15 (broadcastInDim S65536x2x1 ![0, 1] bcast_S65536x2_S65536x2x1_0_1 : (⟨S65536x2, .f32⟩ : BufTy).Contents (Elt F) → (⟨S65536x2x1, .f32⟩ : BufTy).Contents (Elt F)),
    unary main_v14 main_v16 (broadcastInDim S65536x2x1 ![0, 1] bcast_S65536x2_S65536x2x1_0_1 : (⟨S65536x2, .f32⟩ : BufTy).Contents (Elt F) → (⟨S65536x2x1, .f32⟩ : BufTy).Contents (Elt F)),
    binary main_v15 main_v16 main_v17 ((fun a b => concatenate S65536x2x2 2 [⟨S65536x2x1, a⟩, ⟨S65536x2x1, b⟩] concatenates_S65536x2x1_S65536x2x1_S65536x2x2_d2) : (⟨S65536x2x1, .f32⟩ : BufTy).Contents (Elt F) → (⟨S65536x2x1, .f32⟩ : BufTy).Contents (Elt F) → (⟨S65536x2x2, .f32⟩ : BufTy).Contents (Elt F)),
    reshape main_v17 main_v18 rfl shapeCasts_S65536x2x2_S65536x4 ]

abbrev level2 : List (HloOp τ sig (Elt F)) :=
  [ unary main_arg0 main_v19 ((extractStridedSlice S65536x4 ![0, 3] · slices_S65536x1023_S65536x4_0_3) : (⟨S65536x1023, .f32⟩ : BufTy).Contents (Elt F) → (⟨S65536x4, .f32⟩ : BufTy).Contents (Elt F)),
    binary main_v18 main_v19 main_v20 (mulf : (⟨S65536x4, .f32⟩ : BufTy).Contents (Elt F) → (⟨S65536x4, .f32⟩ : BufTy).Contents (Elt F) → (⟨S65536x4, .f32⟩ : BufTy).Contents (Elt F)),
    nullary main_cst_2 (constant S_ .f32 0x3F800000#32),
    unary main_cst_2 main_v21 (broadcastInDim S65536x4 ![] bcast_S_S65536x4 : (⟨S_, .f32⟩ : BufTy).Contents (Elt F) → (⟨S65536x4, .f32⟩ : BufTy).Contents (Elt F)),
    binary main_v21 main_v19 main_v22 (subf : (⟨S65536x4, .f32⟩ : BufTy).Contents (Elt F) → (⟨S65536x4, .f32⟩ : BufTy).Contents (Elt F) → (⟨S65536x4, .f32⟩ : BufTy).Contents (Elt F)),
    binary main_v18 main_v22 main_v23 (mulf : (⟨S65536x4, .f32⟩ : BufTy).Contents (Elt F) → (⟨S65536x4, .f32⟩ : BufTy).Contents (Elt F) → (⟨S65536x4, .f32⟩ : BufTy).Contents (Elt F)),
    unary main_v20 main_v24 (broadcastInDim S65536x4x1 ![0, 1] bcast_S65536x4_S65536x4x1_0_1 : (⟨S65536x4, .f32⟩ : BufTy).Contents (Elt F) → (⟨S65536x4x1, .f32⟩ : BufTy).Contents (Elt F)),
    unary main_v23 main_v25 (broadcastInDim S65536x4x1 ![0, 1] bcast_S65536x4_S65536x4x1_0_1 : (⟨S65536x4, .f32⟩ : BufTy).Contents (Elt F) → (⟨S65536x4x1, .f32⟩ : BufTy).Contents (Elt F)),
    binary main_v24 main_v25 main_v26 ((fun a b => concatenate S65536x4x2 2 [⟨S65536x4x1, a⟩, ⟨S65536x4x1, b⟩] concatenates_S65536x4x1_S65536x4x1_S65536x4x2_d2) : (⟨S65536x4x1, .f32⟩ : BufTy).Contents (Elt F) → (⟨S65536x4x1, .f32⟩ : BufTy).Contents (Elt F) → (⟨S65536x4x2, .f32⟩ : BufTy).Contents (Elt F)),
    reshape main_v26 main_v27 rfl shapeCasts_S65536x4x2_S65536x8 ]

abbrev level3 : List (HloOp τ sig (Elt F)) :=
  [ unary main_arg0 main_v28 ((extractStridedSlice S65536x8 ![0, 7] · slices_S65536x1023_S65536x8_0_7) : (⟨S65536x1023, .f32⟩ : BufTy).Contents (Elt F) → (⟨S65536x8, .f32⟩ : BufTy).Contents (Elt F)),
    binary main_v27 main_v28 main_v29 (mulf : (⟨S65536x8, .f32⟩ : BufTy).Contents (Elt F) → (⟨S65536x8, .f32⟩ : BufTy).Contents (Elt F) → (⟨S65536x8, .f32⟩ : BufTy).Contents (Elt F)),
    nullary main_cst_3 (constant S_ .f32 0x3F800000#32),
    unary main_cst_3 main_v30 (broadcastInDim S65536x8 ![] bcast_S_S65536x8 : (⟨S_, .f32⟩ : BufTy).Contents (Elt F) → (⟨S65536x8, .f32⟩ : BufTy).Contents (Elt F)),
    binary main_v30 main_v28 main_v31 (subf : (⟨S65536x8, .f32⟩ : BufTy).Contents (Elt F) → (⟨S65536x8, .f32⟩ : BufTy).Contents (Elt F) → (⟨S65536x8, .f32⟩ : BufTy).Contents (Elt F)),
    binary main_v27 main_v31 main_v32 (mulf : (⟨S65536x8, .f32⟩ : BufTy).Contents (Elt F) → (⟨S65536x8, .f32⟩ : BufTy).Contents (Elt F) → (⟨S65536x8, .f32⟩ : BufTy).Contents (Elt F)),
    unary main_v29 main_v33 (broadcastInDim S65536x8x1 ![0, 1] bcast_S65536x8_S65536x8x1_0_1 : (⟨S65536x8, .f32⟩ : BufTy).Contents (Elt F) → (⟨S65536x8x1, .f32⟩ : BufTy).Contents (Elt F)),
    unary main_v32 main_v34 (broadcastInDim S65536x8x1 ![0, 1] bcast_S65536x8_S65536x8x1_0_1 : (⟨S65536x8, .f32⟩ : BufTy).Contents (Elt F) → (⟨S65536x8x1, .f32⟩ : BufTy).Contents (Elt F)),
    binary main_v33 main_v34 main_v35 ((fun a b => concatenate S65536x8x2 2 [⟨S65536x8x1, a⟩, ⟨S65536x8x1, b⟩] concatenates_S65536x8x1_S65536x8x1_S65536x8x2_d2) : (⟨S65536x8x1, .f32⟩ : BufTy).Contents (Elt F) → (⟨S65536x8x1, .f32⟩ : BufTy).Contents (Elt F) → (⟨S65536x8x2, .f32⟩ : BufTy).Contents (Elt F)),
    reshape main_v35 main_v36 rfl shapeCasts_S65536x8x2_S65536x16 ]

abbrev level4 : List (HloOp τ sig (Elt F)) :=
  [ unary main_arg0 main_v37 ((extractStridedSlice S65536x16 ![0, 15] · slices_S65536x1023_S65536x16_0_15) : (⟨S65536x1023, .f32⟩ : BufTy).Contents (Elt F) → (⟨S65536x16, .f32⟩ : BufTy).Contents (Elt F)),
    binary main_v36 main_v37 main_v38 (mulf : (⟨S65536x16, .f32⟩ : BufTy).Contents (Elt F) → (⟨S65536x16, .f32⟩ : BufTy).Contents (Elt F) → (⟨S65536x16, .f32⟩ : BufTy).Contents (Elt F)),
    nullary main_cst_4 (constant S_ .f32 0x3F800000#32),
    unary main_cst_4 main_v39 (broadcastInDim S65536x16 ![] bcast_S_S65536x16 : (⟨S_, .f32⟩ : BufTy).Contents (Elt F) → (⟨S65536x16, .f32⟩ : BufTy).Contents (Elt F)),
    binary main_v39 main_v37 main_v40 (subf : (⟨S65536x16, .f32⟩ : BufTy).Contents (Elt F) → (⟨S65536x16, .f32⟩ : BufTy).Contents (Elt F) → (⟨S65536x16, .f32⟩ : BufTy).Contents (Elt F)),
    binary main_v36 main_v40 main_v41 (mulf : (⟨S65536x16, .f32⟩ : BufTy).Contents (Elt F) → (⟨S65536x16, .f32⟩ : BufTy).Contents (Elt F) → (⟨S65536x16, .f32⟩ : BufTy).Contents (Elt F)),
    unary main_v38 main_v42 (broadcastInDim S65536x16x1 ![0, 1] bcast_S65536x16_S65536x16x1_0_1 : (⟨S65536x16, .f32⟩ : BufTy).Contents (Elt F) → (⟨S65536x16x1, .f32⟩ : BufTy).Contents (Elt F)),
    unary main_v41 main_v43 (broadcastInDim S65536x16x1 ![0, 1] bcast_S65536x16_S65536x16x1_0_1 : (⟨S65536x16, .f32⟩ : BufTy).Contents (Elt F) → (⟨S65536x16x1, .f32⟩ : BufTy).Contents (Elt F)),
    binary main_v42 main_v43 main_v44 ((fun a b => concatenate S65536x16x2 2 [⟨S65536x16x1, a⟩, ⟨S65536x16x1, b⟩] concatenates_S65536x16x1_S65536x16x1_S65536x16x2_d2) : (⟨S65536x16x1, .f32⟩ : BufTy).Contents (Elt F) → (⟨S65536x16x1, .f32⟩ : BufTy).Contents (Elt F) → (⟨S65536x16x2, .f32⟩ : BufTy).Contents (Elt F)),
    reshape main_v44 main_v45 rfl shapeCasts_S65536x16x2_S65536x32 ]

abbrev level5 : List (HloOp τ sig (Elt F)) :=
  [ unary main_arg0 main_v46 ((extractStridedSlice S65536x32 ![0, 31] · slices_S65536x1023_S65536x32_0_31) : (⟨S65536x1023, .f32⟩ : BufTy).Contents (Elt F) → (⟨S65536x32, .f32⟩ : BufTy).Contents (Elt F)),
    binary main_v45 main_v46 main_v47 (mulf : (⟨S65536x32, .f32⟩ : BufTy).Contents (Elt F) → (⟨S65536x32, .f32⟩ : BufTy).Contents (Elt F) → (⟨S65536x32, .f32⟩ : BufTy).Contents (Elt F)),
    nullary main_cst_5 (constant S_ .f32 0x3F800000#32),
    unary main_cst_5 main_v48 (broadcastInDim S65536x32 ![] bcast_S_S65536x32 : (⟨S_, .f32⟩ : BufTy).Contents (Elt F) → (⟨S65536x32, .f32⟩ : BufTy).Contents (Elt F)),
    binary main_v48 main_v46 main_v49 (subf : (⟨S65536x32, .f32⟩ : BufTy).Contents (Elt F) → (⟨S65536x32, .f32⟩ : BufTy).Contents (Elt F) → (⟨S65536x32, .f32⟩ : BufTy).Contents (Elt F)),
    binary main_v45 main_v49 main_v50 (mulf : (⟨S65536x32, .f32⟩ : BufTy).Contents (Elt F) → (⟨S65536x32, .f32⟩ : BufTy).Contents (Elt F) → (⟨S65536x32, .f32⟩ : BufTy).Contents (Elt F)),
    unary main_v47 main_v51 (broadcastInDim S65536x32x1 ![0, 1] bcast_S65536x32_S65536x32x1_0_1 : (⟨S65536x32, .f32⟩ : BufTy).Contents (Elt F) → (⟨S65536x32x1, .f32⟩ : BufTy).Contents (Elt F)),
    unary main_v50 main_v52 (broadcastInDim S65536x32x1 ![0, 1] bcast_S65536x32_S65536x32x1_0_1 : (⟨S65536x32, .f32⟩ : BufTy).Contents (Elt F) → (⟨S65536x32x1, .f32⟩ : BufTy).Contents (Elt F)),
    binary main_v51 main_v52 main_v53 ((fun a b => concatenate S65536x32x2 2 [⟨S65536x32x1, a⟩, ⟨S65536x32x1, b⟩] concatenates_S65536x32x1_S65536x32x1_S65536x32x2_d2) : (⟨S65536x32x1, .f32⟩ : BufTy).Contents (Elt F) → (⟨S65536x32x1, .f32⟩ : BufTy).Contents (Elt F) → (⟨S65536x32x2, .f32⟩ : BufTy).Contents (Elt F)),
    reshape main_v53 main_v54 rfl shapeCasts_S65536x32x2_S65536x64 ]

abbrev level6 : List (HloOp τ sig (Elt F)) :=
  [ unary main_arg0 main_v55 ((extractStridedSlice S65536x64 ![0, 63] · slices_S65536x1023_S65536x64_0_63) : (⟨S65536x1023, .f32⟩ : BufTy).Contents (Elt F) → (⟨S65536x64, .f32⟩ : BufTy).Contents (Elt F)),
    binary main_v54 main_v55 main_v56 (mulf : (⟨S65536x64, .f32⟩ : BufTy).Contents (Elt F) → (⟨S65536x64, .f32⟩ : BufTy).Contents (Elt F) → (⟨S65536x64, .f32⟩ : BufTy).Contents (Elt F)),
    nullary main_cst_6 (constant S_ .f32 0x3F800000#32),
    unary main_cst_6 main_v57 (broadcastInDim S65536x64 ![] bcast_S_S65536x64 : (⟨S_, .f32⟩ : BufTy).Contents (Elt F) → (⟨S65536x64, .f32⟩ : BufTy).Contents (Elt F)),
    binary main_v57 main_v55 main_v58 (subf : (⟨S65536x64, .f32⟩ : BufTy).Contents (Elt F) → (⟨S65536x64, .f32⟩ : BufTy).Contents (Elt F) → (⟨S65536x64, .f32⟩ : BufTy).Contents (Elt F)),
    binary main_v54 main_v58 main_v59 (mulf : (⟨S65536x64, .f32⟩ : BufTy).Contents (Elt F) → (⟨S65536x64, .f32⟩ : BufTy).Contents (Elt F) → (⟨S65536x64, .f32⟩ : BufTy).Contents (Elt F)),
    unary main_v56 main_v60 (broadcastInDim S65536x64x1 ![0, 1] bcast_S65536x64_S65536x64x1_0_1 : (⟨S65536x64, .f32⟩ : BufTy).Contents (Elt F) → (⟨S65536x64x1, .f32⟩ : BufTy).Contents (Elt F)),
    unary main_v59 main_v61 (broadcastInDim S65536x64x1 ![0, 1] bcast_S65536x64_S65536x64x1_0_1 : (⟨S65536x64, .f32⟩ : BufTy).Contents (Elt F) → (⟨S65536x64x1, .f32⟩ : BufTy).Contents (Elt F)),
    binary main_v60 main_v61 main_v62 ((fun a b => concatenate S65536x64x2 2 [⟨S65536x64x1, a⟩, ⟨S65536x64x1, b⟩] concatenates_S65536x64x1_S65536x64x1_S65536x64x2_d2) : (⟨S65536x64x1, .f32⟩ : BufTy).Contents (Elt F) → (⟨S65536x64x1, .f32⟩ : BufTy).Contents (Elt F) → (⟨S65536x64x2, .f32⟩ : BufTy).Contents (Elt F)),
    reshape main_v62 main_v63 rfl shapeCasts_S65536x64x2_S65536x128 ]

abbrev level7 : List (HloOp τ sig (Elt F)) :=
  [ unary main_arg0 main_v64 ((extractStridedSlice S65536x128 ![0, 127] · slices_S65536x1023_S65536x128_0_127) : (⟨S65536x1023, .f32⟩ : BufTy).Contents (Elt F) → (⟨S65536x128, .f32⟩ : BufTy).Contents (Elt F)),
    binary main_v63 main_v64 main_v65 (mulf : (⟨S65536x128, .f32⟩ : BufTy).Contents (Elt F) → (⟨S65536x128, .f32⟩ : BufTy).Contents (Elt F) → (⟨S65536x128, .f32⟩ : BufTy).Contents (Elt F)),
    nullary main_cst_7 (constant S_ .f32 0x3F800000#32),
    unary main_cst_7 main_v66 (broadcastInDim S65536x128 ![] bcast_S_S65536x128 : (⟨S_, .f32⟩ : BufTy).Contents (Elt F) → (⟨S65536x128, .f32⟩ : BufTy).Contents (Elt F)),
    binary main_v66 main_v64 main_v67 (subf : (⟨S65536x128, .f32⟩ : BufTy).Contents (Elt F) → (⟨S65536x128, .f32⟩ : BufTy).Contents (Elt F) → (⟨S65536x128, .f32⟩ : BufTy).Contents (Elt F)),
    binary main_v63 main_v67 main_v68 (mulf : (⟨S65536x128, .f32⟩ : BufTy).Contents (Elt F) → (⟨S65536x128, .f32⟩ : BufTy).Contents (Elt F) → (⟨S65536x128, .f32⟩ : BufTy).Contents (Elt F)),
    unary main_v65 main_v69 (broadcastInDim S65536x128x1 ![0, 1] bcast_S65536x128_S65536x128x1_0_1 : (⟨S65536x128, .f32⟩ : BufTy).Contents (Elt F) → (⟨S65536x128x1, .f32⟩ : BufTy).Contents (Elt F)),
    unary main_v68 main_v70 (broadcastInDim S65536x128x1 ![0, 1] bcast_S65536x128_S65536x128x1_0_1 : (⟨S65536x128, .f32⟩ : BufTy).Contents (Elt F) → (⟨S65536x128x1, .f32⟩ : BufTy).Contents (Elt F)),
    binary main_v69 main_v70 main_v71 ((fun a b => concatenate S65536x128x2 2 [⟨S65536x128x1, a⟩, ⟨S65536x128x1, b⟩] concatenates_S65536x128x1_S65536x128x1_S65536x128x2_d2) : (⟨S65536x128x1, .f32⟩ : BufTy).Contents (Elt F) → (⟨S65536x128x1, .f32⟩ : BufTy).Contents (Elt F) → (⟨S65536x128x2, .f32⟩ : BufTy).Contents (Elt F)),
    reshape main_v71 main_v72 rfl shapeCasts_S65536x128x2_S65536x256 ]

abbrev level8 : List (HloOp τ sig (Elt F)) :=
  [ unary main_arg0 main_v73 ((extractStridedSlice S65536x256 ![0, 255] · slices_S65536x1023_S65536x256_0_255) : (⟨S65536x1023, .f32⟩ : BufTy).Contents (Elt F) → (⟨S65536x256, .f32⟩ : BufTy).Contents (Elt F)),
    binary main_v72 main_v73 main_v74 (mulf : (⟨S65536x256, .f32⟩ : BufTy).Contents (Elt F) → (⟨S65536x256, .f32⟩ : BufTy).Contents (Elt F) → (⟨S65536x256, .f32⟩ : BufTy).Contents (Elt F)),
    nullary main_cst_8 (constant S_ .f32 0x3F800000#32),
    unary main_cst_8 main_v75 (broadcastInDim S65536x256 ![] bcast_S_S65536x256 : (⟨S_, .f32⟩ : BufTy).Contents (Elt F) → (⟨S65536x256, .f32⟩ : BufTy).Contents (Elt F)),
    binary main_v75 main_v73 main_v76 (subf : (⟨S65536x256, .f32⟩ : BufTy).Contents (Elt F) → (⟨S65536x256, .f32⟩ : BufTy).Contents (Elt F) → (⟨S65536x256, .f32⟩ : BufTy).Contents (Elt F)),
    binary main_v72 main_v76 main_v77 (mulf : (⟨S65536x256, .f32⟩ : BufTy).Contents (Elt F) → (⟨S65536x256, .f32⟩ : BufTy).Contents (Elt F) → (⟨S65536x256, .f32⟩ : BufTy).Contents (Elt F)),
    unary main_v74 main_v78 (broadcastInDim S65536x256x1 ![0, 1] bcast_S65536x256_S65536x256x1_0_1 : (⟨S65536x256, .f32⟩ : BufTy).Contents (Elt F) → (⟨S65536x256x1, .f32⟩ : BufTy).Contents (Elt F)),
    unary main_v77 main_v79 (broadcastInDim S65536x256x1 ![0, 1] bcast_S65536x256_S65536x256x1_0_1 : (⟨S65536x256, .f32⟩ : BufTy).Contents (Elt F) → (⟨S65536x256x1, .f32⟩ : BufTy).Contents (Elt F)),
    binary main_v78 main_v79 main_v80 ((fun a b => concatenate S65536x256x2 2 [⟨S65536x256x1, a⟩, ⟨S65536x256x1, b⟩] concatenates_S65536x256x1_S65536x256x1_S65536x256x2_d2) : (⟨S65536x256x1, .f32⟩ : BufTy).Contents (Elt F) → (⟨S65536x256x1, .f32⟩ : BufTy).Contents (Elt F) → (⟨S65536x256x2, .f32⟩ : BufTy).Contents (Elt F)),
    reshape main_v80 main_v81 rfl shapeCasts_S65536x256x2_S65536x512 ]

abbrev level9 : List (HloOp τ sig (Elt F)) :=
  [ unary main_arg0 main_v82 ((extractStridedSlice S65536x512 ![0, 511] · slices_S65536x1023_S65536x512_0_511) : (⟨S65536x1023, .f32⟩ : BufTy).Contents (Elt F) → (⟨S65536x512, .f32⟩ : BufTy).Contents (Elt F)),
    binary main_v81 main_v82 main_v83 (mulf : (⟨S65536x512, .f32⟩ : BufTy).Contents (Elt F) → (⟨S65536x512, .f32⟩ : BufTy).Contents (Elt F) → (⟨S65536x512, .f32⟩ : BufTy).Contents (Elt F)),
    nullary main_cst_9 (constant S_ .f32 0x3F800000#32),
    unary main_cst_9 main_v84 (broadcastInDim S65536x512 ![] bcast_S_S65536x512 : (⟨S_, .f32⟩ : BufTy).Contents (Elt F) → (⟨S65536x512, .f32⟩ : BufTy).Contents (Elt F)),
    binary main_v84 main_v82 main_v85 (subf : (⟨S65536x512, .f32⟩ : BufTy).Contents (Elt F) → (⟨S65536x512, .f32⟩ : BufTy).Contents (Elt F) → (⟨S65536x512, .f32⟩ : BufTy).Contents (Elt F)),
    binary main_v81 main_v85 main_v86 (mulf : (⟨S65536x512, .f32⟩ : BufTy).Contents (Elt F) → (⟨S65536x512, .f32⟩ : BufTy).Contents (Elt F) → (⟨S65536x512, .f32⟩ : BufTy).Contents (Elt F)),
    unary main_v83 main_v87 (broadcastInDim S65536x512x1 ![0, 1] bcast_S65536x512_S65536x512x1_0_1 : (⟨S65536x512, .f32⟩ : BufTy).Contents (Elt F) → (⟨S65536x512x1, .f32⟩ : BufTy).Contents (Elt F)),
    unary main_v86 main_v88 (broadcastInDim S65536x512x1 ![0, 1] bcast_S65536x512_S65536x512x1_0_1 : (⟨S65536x512, .f32⟩ : BufTy).Contents (Elt F) → (⟨S65536x512x1, .f32⟩ : BufTy).Contents (Elt F)),
    binary main_v87 main_v88 main_v89 ((fun a b => concatenate S65536x512x2 2 [⟨S65536x512x1, a⟩, ⟨S65536x512x1, b⟩] concatenates_S65536x512x1_S65536x512x1_S65536x512x2_d2) : (⟨S65536x512x1, .f32⟩ : BufTy).Contents (Elt F) → (⟨S65536x512x1, .f32⟩ : BufTy).Contents (Elt F) → (⟨S65536x512x2, .f32⟩ : BufTy).Contents (Elt F)),
    reshape main_v89 main_v90 rfl shapeCasts_S65536x512x2_S65536x1024 ]

/-- @main's 102 operations, in order. -/
abbrev ops : List (HloOp τ sig (Elt F)) :=
  level0 ++ (level1 ++ (level2 ++ (level3 ++ (level4 ++ (level5 ++ (level6 ++ (level7 ++ (level8 ++ level9))))))))

/-- The printed @main is that line of operations, by reflexivity. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-! ## The side conditions of the line, level by level -/

theorem level0_sub : (level0 : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem level0_fresh : ∀ op ∈ (level0 : List (HloOp τ sig (Elt F))), op.fresh = ∅ := by
  intro _ h
  (repeat (cases h with | head => rfl | tail _ h => ?_))
  exact nomatch h

theorem level1_sub : (level1 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level1_fresh : ∀ op ∈ (level1 : List (HloOp τ sig (Elt F))), op.fresh = ∅ := by
  intro _ h
  (repeat (cases h with | head => rfl | tail _ h => ?_))
  exact nomatch h

theorem level2_sub : (level2 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level2_fresh : ∀ op ∈ (level2 : List (HloOp τ sig (Elt F))), op.fresh = ∅ := by
  intro _ h
  (repeat (cases h with | head => rfl | tail _ h => ?_))
  exact nomatch h

theorem level3_sub : (level3 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level3_fresh : ∀ op ∈ (level3 : List (HloOp τ sig (Elt F))), op.fresh = ∅ := by
  intro _ h
  (repeat (cases h with | head => rfl | tail _ h => ?_))
  exact nomatch h

theorem level4_sub : (level4 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level4_fresh : ∀ op ∈ (level4 : List (HloOp τ sig (Elt F))), op.fresh = ∅ := by
  intro _ h
  (repeat (cases h with | head => rfl | tail _ h => ?_))
  exact nomatch h

theorem level5_sub : (level5 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level5_fresh : ∀ op ∈ (level5 : List (HloOp τ sig (Elt F))), op.fresh = ∅ := by
  intro _ h
  (repeat (cases h with | head => rfl | tail _ h => ?_))
  exact nomatch h

theorem level6_sub : (level6 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level6_fresh : ∀ op ∈ (level6 : List (HloOp τ sig (Elt F))), op.fresh = ∅ := by
  intro _ h
  (repeat (cases h with | head => rfl | tail _ h => ?_))
  exact nomatch h

theorem level7_sub : (level7 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level7_fresh : ∀ op ∈ (level7 : List (HloOp τ sig (Elt F))), op.fresh = ∅ := by
  intro _ h
  (repeat (cases h with | head => rfl | tail _ h => ?_))
  exact nomatch h

theorem level8_sub : (level8 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level8_fresh : ∀ op ∈ (level8 : List (HloOp τ sig (Elt F))), op.fresh = ∅ := by
  intro _ h
  (repeat (cases h with | head => rfl | tail _ h => ?_))
  exact nomatch h

theorem level9_sub : (level9 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

theorem level9_fresh : ∀ op ∈ (level9 : List (HloOp τ sig (Elt F))), op.fresh = ∅ := by
  intro _ h
  (repeat (cases h with | head => rfl | tail _ h => ?_))
  exact nomatch h

theorem mem_ops {op : HloOp τ sig (Elt F)} (h : op ∈ (ops : List (HloOp τ sig (Elt F)))) :
    op ∈ level0 ∨ op ∈ level1 ∨ op ∈ level2 ∨ op ∈ level3 ∨ op ∈ level4 ∨ op ∈ level5 ∨ op ∈ level6 ∨ op ∈ level7
      ∨ op ∈ level8 ∨ op ∈ level9 := by
  simpa only [ops, List.mem_append] using h

theorem ops_sub : (ops : List (HloOp τ sig (Elt F))).Forall fun op => op.bufs ⊆ tcRefs τ sig := by
  rw [List.forall_iff_forall_mem]
  intro op h
  rcases mem_ops h with h | h | h | h | h | h | h | h | h | h
  · exact List.forall_iff_forall_mem.mp level0_sub op h
  · exact List.forall_iff_forall_mem.mp level1_sub op h
  · exact List.forall_iff_forall_mem.mp level2_sub op h
  · exact List.forall_iff_forall_mem.mp level3_sub op h
  · exact List.forall_iff_forall_mem.mp level4_sub op h
  · exact List.forall_iff_forall_mem.mp level5_sub op h
  · exact List.forall_iff_forall_mem.mp level6_sub op h
  · exact List.forall_iff_forall_mem.mp level7_sub op h
  · exact List.forall_iff_forall_mem.mp level8_sub op h
  · exact List.forall_iff_forall_mem.mp level9_sub op h

theorem ops_fresh : ∀ op ∈ (ops : List (HloOp τ sig (Elt F))), op.fresh = ∅ := by
  intro op h
  rcases mem_ops h with h | h | h | h | h | h | h | h | h | h
  · exact level0_fresh op h
  · exact level1_fresh op h
  · exact level2_fresh op h
  · exact level3_fresh op h
  · exact level4_fresh op h
  · exact level5_fresh op h
  · exact level6_fresh op h
  · exact level7_fresh op h
  · exact level8_fresh op h
  · exact level9_fresh op h

/-- The contents after the whole line are the contents after level 9, after level 8, …, after level 0. -/
theorem after_ops (V : Valuation τ sig (Elt F)) :
    after (ops (F := F)) V = after level9 (after level8 (after level7 (after level6 (after level5 (after level4 (after level3 (after level2 (after level1 (after level0 (V)))))))))) := by
  simp only [ops, StableHlo.after_append]

/-! ## Each level: the input stays, and depth `k` becomes depth `k + 1` -/

theorem level0_arg (W : Valuation τ sig (Elt Ideal)) :
    after (level0 (F := Ideal)) W (Proc.devRef .tc main_arg0) = W (Proc.devRef .tc main_arg0) := by
  after_results

theorem level0_spec (W : Valuation τ sig (Elt Ideal)) (r : Fin 65536 → ℕ → EReal)
    (hx : ∀ b : Fin 65536, rowOf (W (Proc.devRef .tc main_arg0) : FVec Ideal S65536x1023 .f32) b = r b)
    (b : Fin 65536) (j : Fin 2) :
    (after (level0 (F := Ideal)) W (Proc.devRef .tc main_v9) : FVec Ideal S65536x2 .f32) (ix2 b j) = tree (r b) 1 j.val := by
  after_results
  exact level_cols 0 (B := 65536) (L := 1) (L2 := 2) 0 rfl rfl rfl r _ _ _ _ _ _ (fun _ _ => splat_one_apply _ _)
    (fun b n => (slice_cols_apply 0 _ _ b n).trans (congrFun (hx b) _)) (fun i => splat_one_apply _ i) b j

theorem level1_arg (W : Valuation τ sig (Elt Ideal)) :
    after (level1 (F := Ideal)) W (Proc.devRef .tc main_arg0) = W (Proc.devRef .tc main_arg0) := by
  after_results

theorem level1_spec (W : Valuation τ sig (Elt Ideal)) (r : Fin 65536 → ℕ → EReal)
    (hcur : ∀ (b : Fin 65536) (n : Fin 2), (W (Proc.devRef .tc main_v9) : FVec Ideal S65536x2 .f32) (ix2 b n) = tree (r b) 1 n.val)
    (hx : ∀ b : Fin 65536, rowOf (W (Proc.devRef .tc main_arg0) : FVec Ideal S65536x1023 .f32) b = r b)
    (b : Fin 65536) (j : Fin 4) :
    (after (level1 (F := Ideal)) W (Proc.devRef .tc main_v18) : FVec Ideal S65536x4 .f32) (ix2 b j) = tree (r b) 2 j.val := by
  after_results
  exact level_cols 1 (B := 65536) (L := 2) (L2 := 4) 1 rfl rfl rfl r _ _ _ _ _ _ hcur
    (fun b n => (slice_cols_apply 1 _ _ b n).trans (congrFun (hx b) _)) (fun i => splat_one_apply _ i) b j

theorem level2_arg (W : Valuation τ sig (Elt Ideal)) :
    after (level2 (F := Ideal)) W (Proc.devRef .tc main_arg0) = W (Proc.devRef .tc main_arg0) := by
  after_results

theorem level2_spec (W : Valuation τ sig (Elt Ideal)) (r : Fin 65536 → ℕ → EReal)
    (hcur : ∀ (b : Fin 65536) (n : Fin 4), (W (Proc.devRef .tc main_v18) : FVec Ideal S65536x4 .f32) (ix2 b n) = tree (r b) 2 n.val)
    (hx : ∀ b : Fin 65536, rowOf (W (Proc.devRef .tc main_arg0) : FVec Ideal S65536x1023 .f32) b = r b)
    (b : Fin 65536) (j : Fin 8) :
    (after (level2 (F := Ideal)) W (Proc.devRef .tc main_v27) : FVec Ideal S65536x8 .f32) (ix2 b j) = tree (r b) 3 j.val := by
  after_results
  exact level_cols 2 (B := 65536) (L := 4) (L2 := 8) 3 rfl rfl rfl r _ _ _ _ _ _ hcur
    (fun b n => (slice_cols_apply 3 _ _ b n).trans (congrFun (hx b) _)) (fun i => splat_one_apply _ i) b j

theorem level3_arg (W : Valuation τ sig (Elt Ideal)) :
    after (level3 (F := Ideal)) W (Proc.devRef .tc main_arg0) = W (Proc.devRef .tc main_arg0) := by
  after_results

theorem level3_spec (W : Valuation τ sig (Elt Ideal)) (r : Fin 65536 → ℕ → EReal)
    (hcur : ∀ (b : Fin 65536) (n : Fin 8), (W (Proc.devRef .tc main_v27) : FVec Ideal S65536x8 .f32) (ix2 b n) = tree (r b) 3 n.val)
    (hx : ∀ b : Fin 65536, rowOf (W (Proc.devRef .tc main_arg0) : FVec Ideal S65536x1023 .f32) b = r b)
    (b : Fin 65536) (j : Fin 16) :
    (after (level3 (F := Ideal)) W (Proc.devRef .tc main_v36) : FVec Ideal S65536x16 .f32) (ix2 b j) = tree (r b) 4 j.val := by
  after_results
  exact level_cols 3 (B := 65536) (L := 8) (L2 := 16) 7 rfl rfl rfl r _ _ _ _ _ _ hcur
    (fun b n => (slice_cols_apply 7 _ _ b n).trans (congrFun (hx b) _)) (fun i => splat_one_apply _ i) b j

theorem level4_arg (W : Valuation τ sig (Elt Ideal)) :
    after (level4 (F := Ideal)) W (Proc.devRef .tc main_arg0) = W (Proc.devRef .tc main_arg0) := by
  after_results

theorem level4_spec (W : Valuation τ sig (Elt Ideal)) (r : Fin 65536 → ℕ → EReal)
    (hcur : ∀ (b : Fin 65536) (n : Fin 16), (W (Proc.devRef .tc main_v36) : FVec Ideal S65536x16 .f32) (ix2 b n) = tree (r b) 4 n.val)
    (hx : ∀ b : Fin 65536, rowOf (W (Proc.devRef .tc main_arg0) : FVec Ideal S65536x1023 .f32) b = r b)
    (b : Fin 65536) (j : Fin 32) :
    (after (level4 (F := Ideal)) W (Proc.devRef .tc main_v45) : FVec Ideal S65536x32 .f32) (ix2 b j) = tree (r b) 5 j.val := by
  after_results
  exact level_cols 4 (B := 65536) (L := 16) (L2 := 32) 15 rfl rfl rfl r _ _ _ _ _ _ hcur
    (fun b n => (slice_cols_apply 15 _ _ b n).trans (congrFun (hx b) _)) (fun i => splat_one_apply _ i) b j

theorem level5_arg (W : Valuation τ sig (Elt Ideal)) :
    after (level5 (F := Ideal)) W (Proc.devRef .tc main_arg0) = W (Proc.devRef .tc main_arg0) := by
  after_results

theorem level5_spec (W : Valuation τ sig (Elt Ideal)) (r : Fin 65536 → ℕ → EReal)
    (hcur : ∀ (b : Fin 65536) (n : Fin 32), (W (Proc.devRef .tc main_v45) : FVec Ideal S65536x32 .f32) (ix2 b n) = tree (r b) 5 n.val)
    (hx : ∀ b : Fin 65536, rowOf (W (Proc.devRef .tc main_arg0) : FVec Ideal S65536x1023 .f32) b = r b)
    (b : Fin 65536) (j : Fin 64) :
    (after (level5 (F := Ideal)) W (Proc.devRef .tc main_v54) : FVec Ideal S65536x64 .f32) (ix2 b j) = tree (r b) 6 j.val := by
  after_results
  exact level_cols 5 (B := 65536) (L := 32) (L2 := 64) 31 rfl rfl rfl r _ _ _ _ _ _ hcur
    (fun b n => (slice_cols_apply 31 _ _ b n).trans (congrFun (hx b) _)) (fun i => splat_one_apply _ i) b j

theorem level6_arg (W : Valuation τ sig (Elt Ideal)) :
    after (level6 (F := Ideal)) W (Proc.devRef .tc main_arg0) = W (Proc.devRef .tc main_arg0) := by
  after_results

theorem level6_spec (W : Valuation τ sig (Elt Ideal)) (r : Fin 65536 → ℕ → EReal)
    (hcur : ∀ (b : Fin 65536) (n : Fin 64), (W (Proc.devRef .tc main_v54) : FVec Ideal S65536x64 .f32) (ix2 b n) = tree (r b) 6 n.val)
    (hx : ∀ b : Fin 65536, rowOf (W (Proc.devRef .tc main_arg0) : FVec Ideal S65536x1023 .f32) b = r b)
    (b : Fin 65536) (j : Fin 128) :
    (after (level6 (F := Ideal)) W (Proc.devRef .tc main_v63) : FVec Ideal S65536x128 .f32) (ix2 b j) = tree (r b) 7 j.val := by
  after_results
  exact level_cols 6 (B := 65536) (L := 64) (L2 := 128) 63 rfl rfl rfl r _ _ _ _ _ _ hcur
    (fun b n => (slice_cols_apply 63 _ _ b n).trans (congrFun (hx b) _)) (fun i => splat_one_apply _ i) b j

theorem level7_arg (W : Valuation τ sig (Elt Ideal)) :
    after (level7 (F := Ideal)) W (Proc.devRef .tc main_arg0) = W (Proc.devRef .tc main_arg0) := by
  after_results

theorem level7_spec (W : Valuation τ sig (Elt Ideal)) (r : Fin 65536 → ℕ → EReal)
    (hcur : ∀ (b : Fin 65536) (n : Fin 128), (W (Proc.devRef .tc main_v63) : FVec Ideal S65536x128 .f32) (ix2 b n) = tree (r b) 7 n.val)
    (hx : ∀ b : Fin 65536, rowOf (W (Proc.devRef .tc main_arg0) : FVec Ideal S65536x1023 .f32) b = r b)
    (b : Fin 65536) (j : Fin 256) :
    (after (level7 (F := Ideal)) W (Proc.devRef .tc main_v72) : FVec Ideal S65536x256 .f32) (ix2 b j) = tree (r b) 8 j.val := by
  after_results
  exact level_cols 7 (B := 65536) (L := 128) (L2 := 256) 127 rfl rfl rfl r _ _ _ _ _ _ hcur
    (fun b n => (slice_cols_apply 127 _ _ b n).trans (congrFun (hx b) _)) (fun i => splat_one_apply _ i) b j

theorem level8_arg (W : Valuation τ sig (Elt Ideal)) :
    after (level8 (F := Ideal)) W (Proc.devRef .tc main_arg0) = W (Proc.devRef .tc main_arg0) := by
  after_results

theorem level8_spec (W : Valuation τ sig (Elt Ideal)) (r : Fin 65536 → ℕ → EReal)
    (hcur : ∀ (b : Fin 65536) (n : Fin 256), (W (Proc.devRef .tc main_v72) : FVec Ideal S65536x256 .f32) (ix2 b n) = tree (r b) 8 n.val)
    (hx : ∀ b : Fin 65536, rowOf (W (Proc.devRef .tc main_arg0) : FVec Ideal S65536x1023 .f32) b = r b)
    (b : Fin 65536) (j : Fin 512) :
    (after (level8 (F := Ideal)) W (Proc.devRef .tc main_v81) : FVec Ideal S65536x512 .f32) (ix2 b j) = tree (r b) 9 j.val := by
  after_results
  exact level_cols 8 (B := 65536) (L := 256) (L2 := 512) 255 rfl rfl rfl r _ _ _ _ _ _ hcur
    (fun b n => (slice_cols_apply 255 _ _ b n).trans (congrFun (hx b) _)) (fun i => splat_one_apply _ i) b j

theorem level9_arg (W : Valuation τ sig (Elt Ideal)) :
    after (level9 (F := Ideal)) W (Proc.devRef .tc main_arg0) = W (Proc.devRef .tc main_arg0) := by
  after_results

theorem level9_spec (W : Valuation τ sig (Elt Ideal)) (r : Fin 65536 → ℕ → EReal)
    (hcur : ∀ (b : Fin 65536) (n : Fin 512), (W (Proc.devRef .tc main_v81) : FVec Ideal S65536x512 .f32) (ix2 b n) = tree (r b) 9 n.val)
    (hx : ∀ b : Fin 65536, rowOf (W (Proc.devRef .tc main_arg0) : FVec Ideal S65536x1023 .f32) b = r b)
    (b : Fin 65536) (j : Fin 1024) :
    (after (level9 (F := Ideal)) W (Proc.devRef .tc main_v90) : FVec Ideal S65536x1024 .f32) (ix2 b j) = tree (r b) 10 j.val := by
  after_results
  exact level_cols 9 (B := 65536) (L := 512) (L2 := 1024) 511 rfl rfl rfl r _ _ _ _ _ _ hcur
    (fun b n => (slice_cols_apply 511 _ _ b n).trans (congrFun (hx b) _)) (fun i => splat_one_apply _ i) b j

/-! ## The ten levels chained -/

/-- The input array is where it was after the whole line. -/
theorem arg_eq (V : Valuation τ sig (Elt Ideal)) :
    after (ops (F := Ideal)) V (Proc.devRef .tc main_arg0) = V (Proc.devRef .tc main_arg0) := by
  rw [after_ops, level9_arg, level8_arg, level7_arg, level6_arg, level5_arg, level4_arg, level3_arg, level2_arg, level1_arg,
    level0_arg]

/-- The result buffer after the whole line, entry by entry: leaf `j` of the tree of the input's row `b`. -/
theorem out_spec (V : Valuation τ sig (Elt Ideal)) (b : Fin 65536) (j : Fin 1024) :
    (after (ops (F := Ideal)) V (Proc.devRef .tc main_v90) : FVec Ideal S65536x1024 .f32) (ix2 b j)
      = tree (rowOf (V (Proc.devRef .tc main_arg0) : FVec Ideal S65536x1023 .f32) b) 10 j.val := by
  rw [after_ops]
  generalize hr : (fun b : Fin 65536 => rowOf (V (Proc.devRef .tc main_arg0) : FVec Ideal S65536x1023 .f32) b) = r
  have hgoal : rowOf (V (Proc.devRef .tc main_arg0) : FVec Ideal S65536x1023 .f32) b = r b := by rw [← hr]
  rw [hgoal]
  have hx0 : ∀ b : Fin 65536, rowOf (V (Proc.devRef .tc main_arg0) : FVec Ideal S65536x1023 .f32) b = r b :=
    fun b => by rw [← hr]
  have a0 := level0_arg V
  have s0 := level0_spec V r hx0
  have x0 : ∀ b : Fin 65536, rowOf (after (level0 (F := Ideal)) V (Proc.devRef .tc main_arg0) : FVec Ideal S65536x1023 .f32) b = r b :=
    fun b => (congrArg (fun x : FVec Ideal S65536x1023 .f32 => rowOf x b) a0).trans (hx0 b)
  clear a0
  generalize after (level0 (F := Ideal)) V = W at s0 x0 ⊢
  have a1 := level1_arg W
  have s1 := level1_spec W r s0 x0
  have x1 : ∀ b : Fin 65536, rowOf (after (level1 (F := Ideal)) W (Proc.devRef .tc main_arg0) : FVec Ideal S65536x1023 .f32) b = r b :=
    fun b => (congrArg (fun x : FVec Ideal S65536x1023 .f32 => rowOf x b) a1).trans (x0 b)
  clear a1 s0 x0
  generalize after (level1 (F := Ideal)) W = W1 at s1 x1 ⊢
  clear W
  rename' W1 => W
  have a2 := level2_arg W
  have s2 := level2_spec W r s1 x1
  have x2 : ∀ b : Fin 65536, rowOf (after (level2 (F := Ideal)) W (Proc.devRef .tc main_arg0) : FVec Ideal S65536x1023 .f32) b = r b :=
    fun b => (congrArg (fun x : FVec Ideal S65536x1023 .f32 => rowOf x b) a2).trans (x1 b)
  clear a2 s1 x1
  generalize after (level2 (F := Ideal)) W = W2 at s2 x2 ⊢
  clear W
  rename' W2 => W
  have a3 := level3_arg W
  have s3 := level3_spec W r s2 x2
  have x3 : ∀ b : Fin 65536, rowOf (after (level3 (F := Ideal)) W (Proc.devRef .tc main_arg0) : FVec Ideal S65536x1023 .f32) b = r b :=
    fun b => (congrArg (fun x : FVec Ideal S65536x1023 .f32 => rowOf x b) a3).trans (x2 b)
  clear a3 s2 x2
  generalize after (level3 (F := Ideal)) W = W3 at s3 x3 ⊢
  clear W
  rename' W3 => W
  have a4 := level4_arg W
  have s4 := level4_spec W r s3 x3
  have x4 : ∀ b : Fin 65536, rowOf (after (level4 (F := Ideal)) W (Proc.devRef .tc main_arg0) : FVec Ideal S65536x1023 .f32) b = r b :=
    fun b => (congrArg (fun x : FVec Ideal S65536x1023 .f32 => rowOf x b) a4).trans (x3 b)
  clear a4 s3 x3
  generalize after (level4 (F := Ideal)) W = W4 at s4 x4 ⊢
  clear W
  rename' W4 => W
  have a5 := level5_arg W
  have s5 := level5_spec W r s4 x4
  have x5 : ∀ b : Fin 65536, rowOf (after (level5 (F := Ideal)) W (Proc.devRef .tc main_arg0) : FVec Ideal S65536x1023 .f32) b = r b :=
    fun b => (congrArg (fun x : FVec Ideal S65536x1023 .f32 => rowOf x b) a5).trans (x4 b)
  clear a5 s4 x4
  generalize after (level5 (F := Ideal)) W = W5 at s5 x5 ⊢
  clear W
  rename' W5 => W
  have a6 := level6_arg W
  have s6 := level6_spec W r s5 x5
  have x6 : ∀ b : Fin 65536, rowOf (after (level6 (F := Ideal)) W (Proc.devRef .tc main_arg0) : FVec Ideal S65536x1023 .f32) b = r b :=
    fun b => (congrArg (fun x : FVec Ideal S65536x1023 .f32 => rowOf x b) a6).trans (x5 b)
  clear a6 s5 x5
  generalize after (level6 (F := Ideal)) W = W6 at s6 x6 ⊢
  clear W
  rename' W6 => W
  have a7 := level7_arg W
  have s7 := level7_spec W r s6 x6
  have x7 : ∀ b : Fin 65536, rowOf (after (level7 (F := Ideal)) W (Proc.devRef .tc main_arg0) : FVec Ideal S65536x1023 .f32) b = r b :=
    fun b => (congrArg (fun x : FVec Ideal S65536x1023 .f32 => rowOf x b) a7).trans (x6 b)
  clear a7 s6 x6
  generalize after (level7 (F := Ideal)) W = W7 at s7 x7 ⊢
  clear W
  rename' W7 => W
  have a8 := level8_arg W
  have s8 := level8_spec W r s7 x7
  have x8 : ∀ b : Fin 65536, rowOf (after (level8 (F := Ideal)) W (Proc.devRef .tc main_arg0) : FVec Ideal S65536x1023 .f32) b = r b :=
    fun b => (congrArg (fun x : FVec Ideal S65536x1023 .f32 => rowOf x b) a8).trans (x7 b)
  clear a8 s7 x7
  generalize after (level8 (F := Ideal)) W = W8 at s8 x8 ⊢
  clear W
  rename' W8 => W
  have a9 := level9_arg W
  have s9 := level9_spec W r s8 x8
  have x9 : ∀ b : Fin 65536, rowOf (after (level9 (F := Ideal)) W (Proc.devRef .tc main_arg0) : FVec Ideal S65536x1023 .f32) b = r b :=
    fun b => (congrArg (fun x : FVec Ideal S65536x1023 .f32 => rowOf x b) a9).trans (x8 b)
  clear a9 s8 x8
  generalize after (level9 (F := Ideal)) W = W9 at s9 x9 ⊢
  clear W
  rename' W9 => W
  exact s9 b j

/-- The result buffer after the whole line is the matrix of leaf probabilities of the input. -/
theorem out_eq (V : Valuation τ sig (Elt Ideal)) :
    (after (ops (F := Ideal)) V (Proc.devRef .tc main_v90) : FVec Ideal S65536x1024 .f32)
      = leafProbs (V (Proc.devRef .tc main_arg0)) := by
  funext i
  obtain ⟨b, j, rfl⟩ : ∃ (b : Fin 65536) (j : Fin 1024), i = ix2 b j := ⟨i 0, i 1, eq_ix2 i⟩
  exact out_spec V b j

/-! ## The run -/

/-- From any memory with zero counters every weakly fair execution of the reference's @main terminates, with the result
    at the leaf probabilities of the input and the input unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = leafProbs (m ((c.tc : Thread nD τ).loc main_arg0))
      ∧ r.2.mem ((c.tc : Thread nD τ).loc main_arg0) = m ((c.tc : Thread nD τ).loc main_arg0) :=
  (θ_run defs _ _).mono (fun _ h c => ⟨(h c main_v90).trans (out_eq (launchContents m c)),
      (h c main_arg0).trans (arg_eq (launchContents m c))⟩)
    (run_seq scopedRefs_eq scopedSems_eq defs main (fun _ => ops) main_eq (fun _ => ops_sub) m ρ (fun _ => ops_fresh))

end Cert.ReferenceIdeal.Steps

end
-- ==== Proof.lean ====
/-
  The kernel splits, for each of 65536 rows, 1023 internal-node fractions of a depth-10 binary tree into its
  1024 leaf probabilities: the root has probability 1, and a node of probability `p` with fraction `α` gives
  `p · α` to its left child and `p · (1 - α)` to its right child. The reference does this with the batch row
  first and the nodes of a level on the trailing axis; the kernel does it per tile of 1024 rows, transposed
  (nodes leading, batch rows trailing), under one extra leading row that moves each level's fractions to an
  aligned start, and transposes back before it stores.

  Both programs perform the same multiplications and subtractions in the same order on the same entries, so at
  the ideal instance their results are the same extended reals with no law of arithmetic involved: the proof is
  about WHERE each program reads and writes. `SplitTree` states the tree (`tree`) and reads the two ways of
  interleaving left and right children at an index; `Levels` states one level in each layout against `tree`, and
  the specification `leafProbs`; `TileValue` reads the kernel body's stored value at an index through its ten
  levels; `ArrayValue` goes from the 64 tiles to the whole output array; `RefSteps` reads the reference's run one
  level at a time. Here the two runs are set side by side.

  The precondition (every input finite) is not used: nothing in the argument depends on it.
-/
import proofs.«162643_j39118562132378_2_alg».proof.Defs
import proofs.«162643_j39118562132378_2_alg».proof.Proof.Gen.Kernel
import proofs.«162643_j39118562132378_2_alg».proof.Proof.Gen.Kernel.Skeleton
import proofs.«162643_j39118562132378_2_alg».proof.Proof.Gen.Kernel.Launch
import proofs.«162643_j39118562132378_2_alg».proof.Proof.Gen.Kernel.Points
import proofs.«162643_j39118562132378_2_alg».proof.Proof.Gen.Kernel.Frame
import proofs.«162643_j39118562132378_2_alg».proof.Proof.Gen.KernelIdeal
import proofs.«162643_j39118562132378_2_alg».proof.Proof.Gen.KernelIdeal.Skeleton
import proofs.«162643_j39118562132378_2_alg».proof.Proof.Gen.KernelIdeal.Launch
import proofs.«162643_j39118562132378_2_alg».proof.Proof.Gen.KernelIdeal.Points
import proofs.«162643_j39118562132378_2_alg».proof.Proof.Gen.KernelIdeal.Frame
import proofs.«162643_j39118562132378_2_alg».proof.Proof.Gen.ReferenceIdeal
import proofs.«162643_j39118562132378_2_alg».proof.Proof.Gen.Pre_finite_inputs
import proofs.«162643_j39118562132378_2_alg».proof.Proof.Gen.KernelIdeal.Value
import proofs.«162643_j39118562132378_2_alg».proof.Proof.ArrayValue
import proofs.«162643_j39118562132378_2_alg».proof.Proof.RefSteps
import Idealize.ShloMosaic.Adequacy
import Idealize.ShloMosaic.Init

noncomputable section

namespace Cert.Proof

open Idealize.ShloMosaic Idealize.SL.Sem Cert.SplitTree

/-- The kernel as printed runs and leaves its input unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its input unchanged: its run, the result forgotten. -/
theorem frame_ri : Cert.frame_ReferenceIdeal := fun m ρ _ =>
  (θ_run Cert.ReferenceIdeal.defs _ _).mono (fun _ h c => (h c).2) (Cert.ReferenceIdeal.Steps.run m ρ)

/-- The idealization rewrote nothing. -/
theorem preserves : Cert.preserves_Kernel_KernelIdeal := trivial

/-- From inputs that agree, the kernel's output array and the reference's result are both the matrix of leaf
    probabilities of the input. -/
theorem algebraic : Cert.algebraic_KernelIdeal_ReferenceIdeal := by
  intro m ρ m' ρ' _ hagree
  refine ⟨fun c => leafProbs (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Steps.run m' ρ')
  exact congrArg leafProbs (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
